-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S400000 : Shape := ⟨1, ![400000]⟩
abbrev S3x512x512 : Shape := ⟨3, ![3, 512, 512]⟩
abbrev S3x512 : Shape := ⟨2, ![3, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S400000 : S_.BroadcastsInDim S400000 (![] : Fin 0 → Fin S400000.rank)
  reducesTo_S400000_S_d0 : S400000.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part1 {F : FTy → Type} [FloatOps F] (main_arg5 : FVec F S3x512 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg5
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  main_v23

def fn {F : FTy → Type} [FloatOps F] (main_arg0 : FVec F S50000x512 .f32) (main_arg1 : IVec S2x400000 32) (main_arg2 : FVec F S400000 .f32) (main_arg3 : FVec F S3x512x512 .f32) (main_arg4 : FVec F S3x512x512 .f32) (main_arg5 : FVec F S3x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S3x512x512 .f32 := Host.absf main_arg3
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S3x512x512 .f32 := Host.absf main_arg4
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg5 main_v13 main_v16
-- ==== Kernel.lean ====
abbrev S50000x512 : Shape := ⟨2, ![50000, 512]⟩
abbrev S2x400000 : Shape := ⟨2, ![2, 400000]⟩
abbrev S400000 : Shape := ⟨1, ![400000]⟩
abbrev S3x512x512 : Shape := ⟨3, ![3, 512, 512]⟩
abbrev S3x512 : Shape := ⟨2, ![3, 512]⟩
abbrev S1x400000 : Shape := ⟨2, ![1, 400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1000x512 : Shape := ⟨2, ![1000, 512]⟩

abbrev nBuf : Space → Nat
  | .hbm => 105
  | .vmem => 27
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S400000, .f32⟩
  | .hbm, ⟨3, _⟩ => ⟨S3x512x512, .f32⟩
  | .hbm, ⟨4, _⟩ => ⟨S3x512x512, .f32⟩
  | .hbm, ⟨5, _⟩ => ⟨S3x512, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .f32⟩
  | .hbm, ⟨11, _⟩ => ⟨S400000, .f32⟩
  | .hbm, ⟨12, _⟩ => ⟨S_, .f32⟩
  | .hbm, ⟨13, _⟩ => ⟨S50000, .f32⟩
  | .hbm, ⟨14, _⟩ => ⟨S400000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000x512, .f32⟩
  | .hbm, ⟨36, _⟩ => ⟨S400000x1, .f32⟩
  | .hbm, ⟨37, _⟩ => ⟨S400000x512, .f32⟩
  | .hbm, ⟨38, _⟩ => ⟨S400000x512, .f32⟩
  | .hbm, ⟨39, _⟩ => ⟨S_, .f32⟩
  | .hbm, ⟨40, _⟩ => ⟨S50000x512, .f32⟩
  | .hbm, ⟨41, _⟩ => ⟨S400000x1, .i32⟩
  | .hbm, ⟨42, _⟩ => ⟨S50000x512, .f32⟩
  | .hbm, ⟨43, _⟩ => ⟨S50000x512, .f32⟩
  | .hbm, ⟨44, _⟩ => ⟨S50000x512, .f32⟩
  | .hbm, ⟨45, _⟩ => ⟨S1x512x512, .f32⟩
  | .hbm, ⟨46, _⟩ => ⟨S512x512, .f32⟩
  | .hbm, ⟨47, _⟩ => ⟨S1x512x512, .f32⟩
  | .hbm, ⟨48, _⟩ => ⟨S512x512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S50000x512, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x512, .f32⟩
  | .hbm, ⟨62, _⟩ => ⟨S400000x1, .f32⟩
  | .hbm, ⟨63, _⟩ => ⟨S400000x512, .f32⟩
  | .hbm, ⟨64, _⟩ => ⟨S400000x512, .f32⟩
  | .hbm, ⟨65, _⟩ => ⟨S_, .f32⟩
  | .hbm, ⟨66, _⟩ => ⟨S50000x512, .f32⟩
  | .hbm, ⟨67, _⟩ => ⟨S400000x1, .i32⟩
  | .hbm, ⟨68, _⟩ => ⟨S50000x512, .f32⟩
  | .hbm, ⟨69, _⟩ => ⟨S50000x512, .f32⟩
  | .hbm, ⟨70, _⟩ => ⟨S50000x512, .f32⟩
  | .hbm, ⟨71, _⟩ => ⟨S1x512x512, .f32⟩
  | .hbm, ⟨72, _⟩ => ⟨S512x512, .f32⟩
  | .hbm, ⟨73, _⟩ => ⟨S1x512x512, .f32⟩
  | .hbm, ⟨74, _⟩ => ⟨S512x512, .f32⟩
  | .hbm, ⟨75, _⟩ => ⟨S1x512, .f32⟩
  | .hbm, ⟨76, _⟩ => ⟨S512, .f32⟩
  | .hbm, ⟨77, _⟩ => ⟨S1x512, .f32⟩
  | .hbm, ⟨78, _⟩ => ⟨S50000x512, .f32⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S400000x512, .f32⟩
  | .hbm, ⟨88, _⟩ => ⟨S400000x1, .f32⟩
  | .hbm, ⟨89, _⟩ => ⟨S400000x512, .f32⟩
  | .hbm, ⟨90, _⟩ => ⟨S400000x512, .f32⟩
  | .hbm, ⟨91, _⟩ => ⟨S_, .f32⟩
  | .hbm, ⟨92, _⟩ => ⟨S50000x512, .f32⟩
  | .hbm, ⟨93, _⟩ => ⟨S400000x1, .i32⟩
  | .hbm, ⟨94, _⟩ => ⟨S50000x512, .f32⟩
  | .hbm, ⟨95, _⟩ => ⟨S50000x512, .f32⟩
  | .hbm, ⟨96, _⟩ => ⟨S50000x512, .f32⟩
  | .hbm, ⟨97, _⟩ => ⟨S1x512x512, .f32⟩
  | .hbm, ⟨98, _⟩ => ⟨S512x512, .f32⟩
  | .hbm, ⟨99, _⟩ => ⟨S1x512x512, .f32⟩
  | .hbm, ⟨100, _⟩ => ⟨S512x512, .f32⟩
  | .hbm, ⟨101, _⟩ => ⟨S1x512, .f32⟩
  | .hbm, ⟨102, _⟩ => ⟨S512, .f32⟩
  | .hbm, ⟨103, _⟩ => ⟨S1x512, .f32⟩
  | .hbm, ⟨104, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S1000x512, .f32⟩
  | .local _ .vmem, ⟨26, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_9 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S50000x512.size a
  hwx0_5 : ∀ i : grid0.Coords, EltTy.bits .f32 = 32 ∨ (Rect.block (s := S50000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S50000x512.size a
  hwx1_5 : ∀ i : grid1.Coords, EltTy.bits .f32 = 32 ∨ (Rect.block (s := S50000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S50000x512.size a
  hwx2_1 : ∀ i : grid2.Coords, EltTy.bits .f32 = 32 ∨ (Rect.block (s := S50000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S50000x512.size a
  hwx2_5 : ∀ i : grid2.Coords, EltTy.bits .f32 = 32 ∨ (Rect.block (s := S50000x512) S1000x512.size (cc2_transform_5 i) (hinb2_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v28) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S400000 : Shape := ⟨1, ![400000]⟩
abbrev S3x512x512 : Shape := ⟨3, ![3, 512, 512]⟩
abbrev S3x512 : Shape := ⟨2, ![3, 512]⟩
abbrev S1x400000 : Shape := ⟨2, ![1, 400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 126
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S400000, .f32⟩
  | .hbm, ⟨3, _⟩ => ⟨S3x512x512, .f32⟩
  | .hbm, ⟨4, _⟩ => ⟨S3x512x512, .f32⟩
  | .hbm, ⟨5, _⟩ => ⟨S3x512, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .f32⟩
  | .hbm, ⟨11, _⟩ => ⟨S400000, .f32⟩
  | .hbm, ⟨12, _⟩ => ⟨S_, .f32⟩
  | .hbm, ⟨13, _⟩ => ⟨S50000, .f32⟩
  | .hbm, ⟨14, _⟩ => ⟨S400000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000x512, .f32⟩
  | .hbm, ⟨36, _⟩ => ⟨S400000x1, .f32⟩
  | .hbm, ⟨37, _⟩ => ⟨S400000x512, .f32⟩
  | .hbm, ⟨38, _⟩ => ⟨S400000x512, .f32⟩
  | .hbm, ⟨39, _⟩ => ⟨S_, .f32⟩
  | .hbm, ⟨40, _⟩ => ⟨S50000x512, .f32⟩
  | .hbm, ⟨41, _⟩ => ⟨S400000x1, .i32⟩
  | .hbm, ⟨42, _⟩ => ⟨S50000x512, .f32⟩
  | .hbm, ⟨43, _⟩ => ⟨S50000x512, .f32⟩
  | .hbm, ⟨44, _⟩ => ⟨S50000x512, .f32⟩
  | .hbm, ⟨45, _⟩ => ⟨S1x512x512, .f32⟩
  | .hbm, ⟨46, _⟩ => ⟨S512x512, .f32⟩
  | .hbm, ⟨47, _⟩ => ⟨S50000x512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S50000x512, .f32⟩
  | .hbm, ⟨52, _⟩ => ⟨S50000x512, .f32⟩
  | .hbm, ⟨53, _⟩ => ⟨S1x512x512, .f32⟩
  | .hbm, ⟨54, _⟩ => ⟨S512x512, .f32⟩
  | .hbm, ⟨55, _⟩ => ⟨S50000x512, .f32⟩
  | .hbm, ⟨56, _⟩ => ⟨S50000x512, .f32⟩
  | .hbm, ⟨57, _⟩ => ⟨S_, .f32⟩
  | .hbm, ⟨58, _⟩ => ⟨S50000x512, .f32⟩
  | .hbm, ⟨59, _⟩ => ⟨S50000x512, .f32⟩
  | .hbm, ⟨60, _⟩ => ⟨S_, .i32⟩
  | .hbm, ⟨61, _⟩ => ⟨S400000, .i32⟩
  | .hbm, ⟨62, _⟩ => ⟨S400000, .i1⟩
  | .hbm, ⟨63, _⟩ => ⟨S_, .i32⟩
  | .hbm, ⟨64, _⟩ => ⟨S400000, .i32⟩
  | .hbm, ⟨65, _⟩ => ⟨S400000, .i32⟩
  | .hbm, ⟨66, _⟩ => ⟨S400000, .i32⟩
  | .hbm, ⟨67, _⟩ => ⟨S400000x1, .i32⟩
  | .hbm, ⟨68, _⟩ => ⟨S400000x512, .f32⟩
  | .hbm, ⟨69, _⟩ => ⟨S400000x1, .f32⟩
  | .hbm, ⟨70, _⟩ => ⟨S400000x512, .f32⟩
  | .hbm, ⟨71, _⟩ => ⟨S400000x512, .f32⟩
  | .hbm, ⟨72, _⟩ => ⟨S_, .f32⟩
  | .hbm, ⟨73, _⟩ => ⟨S50000x512, .f32⟩
  | .hbm, ⟨74, _⟩ => ⟨S400000x1, .i32⟩
  | .hbm, ⟨75, _⟩ => ⟨S50000x512, .f32⟩
  | .hbm, ⟨76, _⟩ => ⟨S50000x512, .f32⟩
  | .hbm, ⟨77, _⟩ => ⟨S50000x512, .f32⟩
  | .hbm, ⟨78, _⟩ => ⟨S1x512x512, .f32⟩
  | .hbm, ⟨79, _⟩ => ⟨S512x512, .f32⟩
  | .hbm, ⟨80, _⟩ => ⟨S50000x512, .f32⟩
  | .hbm, ⟨81, _⟩ => ⟨S1x512, .f32⟩
  | .hbm, ⟨82, _⟩ => ⟨S512, .f32⟩
  | .hbm, ⟨83, _⟩ => ⟨S1x512, .f32⟩
  | .hbm, ⟨84, _⟩ => ⟨S50000x512, .f32⟩
  | .hbm, ⟨85, _⟩ => ⟨S50000x512, .f32⟩
  | .hbm, ⟨86, _⟩ => ⟨S1x512x512, .f32⟩
  | .hbm, ⟨87, _⟩ => ⟨S512x512, .f32⟩
  | .hbm, ⟨88, _⟩ => ⟨S50000x512, .f32⟩
  | .hbm, ⟨89, _⟩ => ⟨S50000x512, .f32⟩
  | .hbm, ⟨90, _⟩ => ⟨S_, .f32⟩
  | .hbm, ⟨91, _⟩ => ⟨S50000x512, .f32⟩
  | .hbm, ⟨92, _⟩ => ⟨S50000x512, .f32⟩
  | .hbm, ⟨93, _⟩ => ⟨S_, .i32⟩
  | .hbm, ⟨94, _⟩ => ⟨S400000, .i32⟩
  | .hbm, ⟨95, _⟩ => ⟨S400000, .i1⟩
  | .hbm, ⟨96, _⟩ => ⟨S_, .i32⟩
  | .hbm, ⟨97, _⟩ => ⟨S400000, .i32⟩
  | .hbm, ⟨98, _⟩ => ⟨S400000, .i32⟩
  | .hbm, ⟨99, _⟩ => ⟨S400000, .i32⟩
  | .hbm, ⟨100, _⟩ => ⟨S400000x1, .i32⟩
  | .hbm, ⟨101, _⟩ => ⟨S400000x512, .f32⟩
  | .hbm, ⟨102, _⟩ => ⟨S400000x1, .f32⟩
  | .hbm, ⟨103, _⟩ => ⟨S400000x512, .f32⟩
  | .hbm, ⟨104, _⟩ => ⟨S400000x512, .f32⟩
  | .hbm, ⟨105, _⟩ => ⟨S_, .f32⟩
  | .hbm, ⟨106, _⟩ => ⟨S50000x512, .f32⟩
  | .hbm, ⟨107, _⟩ => ⟨S400000x1, .i32⟩
  | .hbm, ⟨108, _⟩ => ⟨S50000x512, .f32⟩
  | .hbm, ⟨109, _⟩ => ⟨S50000x512, .f32⟩
  | .hbm, ⟨110, _⟩ => ⟨S50000x512, .f32⟩
  | .hbm, ⟨111, _⟩ => ⟨S1x512x512, .f32⟩
  | .hbm, ⟨112, _⟩ => ⟨S512x512, .f32⟩
  | .hbm, ⟨113, _⟩ => ⟨S50000x512, .f32⟩
  | .hbm, ⟨114, _⟩ => ⟨S1x512, .f32⟩
  | .hbm, ⟨115, _⟩ => ⟨S512, .f32⟩
  | .hbm, ⟨116, _⟩ => ⟨S1x512, .f32⟩
  | .hbm, ⟨117, _⟩ => ⟨S50000x512, .f32⟩
  | .hbm, ⟨118, _⟩ => ⟨S50000x512, .f32⟩
  | .hbm, ⟨119, _⟩ => ⟨S1x512x512, .f32⟩
  | .hbm, ⟨120, _⟩ => ⟨S512x512, .f32⟩
  | .hbm, ⟨121, _⟩ => ⟨S50000x512, .f32⟩
  | .hbm, ⟨122, _⟩ => ⟨S50000x512, .f32⟩
  | .hbm, ⟨123, _⟩ => ⟨S_, .f32⟩
  | .hbm, ⟨124, _⟩ => ⟨S50000x512, .f32⟩
  | .hbm, ⟨125, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call1_cst : Ref sig .tc := ⟨.hbm, 57, rfl⟩
abbrev main_call1_v0 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_call2_cst : Ref sig .tc := ⟨.hbm, 90, rfl⟩
abbrev main_call2_v0 : Ref sig .tc := ⟨.hbm, 91, rfl⟩
abbrev main_v69 : Ref sig .tc := ⟨.hbm, 92, rfl⟩
abbrev main_c_9 : Ref sig .tc := ⟨.hbm, 93, rfl⟩
abbrev main_v70 : Ref sig .tc := ⟨.hbm, 94, rfl⟩
abbrev main_v71 : Ref sig .tc := ⟨.hbm, 95, rfl⟩
abbrev main_c_10 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_call3_cst : Ref sig .tc := ⟨.hbm, 123, rfl⟩
abbrev main_call3_v0 : Ref sig .tc := ⟨.hbm, 124, rfl⟩
abbrev main_v97 : Ref sig .tc := ⟨.hbm, 125, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S400000x1_S400000x512_0_1 : S400000x1.BroadcastsInDim S400000x512 (![0, 1] : Fin 2 → Fin S400000x512.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Layer.lean ====
/-
  One layer of the network, as a function on arrays of extended reals.  With a the aggregated neighbour
  features and z the node features (both [rows, 512]), Wl and Wr two [512, 512] weight matrices and β a bias
  row, the layer's entry at (p, q) is
      max ( (Σ_k a(p,k)·Wl(k,q) + Σ_k z(p,k)·Wr(k,q)) + β(q), 0 ).
  Row p of the result depends on row p of a and of z only, which is what lets a block of rows be computed from
  the same block of rows of the operands.  The two sums and the bias may be added in either order: addition of
  extended reals is commutative and associative, with no finiteness needed.
-/
import Idealize.ShloMosaic.PureOps.Ideal.Laws
import Idealize.ShloMosaic.Lib.ValueIdx
import proofs.«138807_j57509612093516_1_alg».proof.Proof.LibMatmul

noncomputable section

open scoped BigOperators

namespace Cert.Sage

open Idealize.ShloMosaic Idealize.ShloMosaic.ValueIdx Cert.LibMatmul

/-- What the zero word of f32 denotes; kept as the word, which both programs share, and never evaluated. -/
abbrev z32 : EReal := Ideal.ofBits .f32 0x00000000#32

/-- The layer: relu of a·Wl + z·Wr + β, row by row. -/
def layer {A : Nat} (wl wr : (⟨2, ![512, 512]⟩ : Shape).Idx → EReal) (β : Fin 512 → EReal)
    (a z : (⟨2, ![A, 512]⟩ : Shape).Idx → EReal) : (⟨2, ![A, 512]⟩ : Shape).Idx → EReal :=
  fun i => max ((MM a wl i + MM z wr i) + β (i 1)) z32

theorem layer_apply {A : Nat} (wl wr : (⟨2, ![512, 512]⟩ : Shape).Idx → EReal) (β : Fin 512 → EReal)
    (a z : (⟨2, ![A, 512]⟩ : Shape).Idx → EReal) (p : Fin A) (q : Fin 512) :
    layer wl wr β a z (ix2 p q)
      = max (((∑ k : Fin 512, a (ix2 p k) * wl (ix2 k q)) + ∑ k : Fin 512, z (ix2 p k) * wr (ix2 k q)) + β q) z32 := rfl

/-- Row p of the layer's result reads row p of the two operands only: two pairs of operands whose rows p and p'
    agree give the same entries in those rows. -/
theorem layer_rows {A A' : Nat} (wl wr : (⟨2, ![512, 512]⟩ : Shape).Idx → EReal) (β : Fin 512 → EReal)
    (a z : (⟨2, ![A, 512]⟩ : Shape).Idx → EReal) (a' z' : (⟨2, ![A', 512]⟩ : Shape).Idx → EReal)
    (p : Fin A) (p' : Fin A') (q : Fin 512)
    (ha : ∀ k : Fin 512, a (ix2 p k) = a' (ix2 p' k)) (hz : ∀ k : Fin 512, z (ix2 p k) = z' (ix2 p' k)) :
    layer wl wr β a z (ix2 p q) = layer wl wr β a' z' (ix2 p' q) := by
  rw [layer_apply, layer_apply]
  simp only [ha, hz]

/-- The same layer with the bias added before the second product (the order the plain formulation uses):
    (a·Wl + β) + z·Wr = (a·Wl + z·Wr) + β on the extended reals. -/
theorem layer_bias_first {A : Nat} (wl wr : (⟨2, ![512, 512]⟩ : Shape).Idx → EReal) (β : Fin 512 → EReal)
    (a z : (⟨2, ![A, 512]⟩ : Shape).Idx → EReal) (i : (⟨2, ![A, 512]⟩ : Shape).Idx) :
    max ((MM a wl i + β (i 1)) + MM z wr i) z32 = layer wl wr β a z i := by
  unfold layer
  rw [add_right_comm]

end Cert.Sage

end
-- ==== Proof.RefNet.lean ====
/-
  The reference program's result as the three layers composed.  Its run ends with the result buffer at the
  composed term of its host operations; that term is, layer by layer, relu((a·Wl + bias) + z·Wr) with a the
  neighbour aggregation of z — the layer function with the bias added before the second product, which is the same
  extended real.  The bias row reaches the layer through a reshape to [512] and two broadcasts, which read it back at
  its one row.
-/
import proofs.«138807_j57509612093516_1_alg».proof.Proof.RefRun
import proofs.«138807_j57509612093516_1_alg».proof.Proof.Layer
import Idealize.ShloMosaic.Lib.Pipeline.Value
import Idealize.ShloMosaic.Lib.ValueLayout

noncomputable section

namespace Cert.ReferenceIdeal.Net

open Cert.ReferenceIdeal Cert.ReferenceIdeal.Gen Idealize.ShloMosaic Idealize.ShloMosaic.TcCoe Idealize.SL.Sem Idealize.ShloMosaic.StableHlo
open Idealize.ShloMosaic.ValueIdx Cert.Sage Cert.LibMatmul

variable {F : FTy → Type} [FloatOps F]

/-- The neighbour aggregation of node features `z` over the edge list `x1` (row 0 the sources, row 1 the
    destinations, a negative source index wrapped once by the node count) with edge weights `x2`: the weighted
    source rows summed into their destination rows, each row then scaled by the inverse in-degree of its node
    (0 where the node has no incoming edge). -/
def agg (z : (⟨S50000x512, .f32⟩ : BufTy).Contents (Elt F)) (x1 : (⟨S2x400000, .i32⟩ : BufTy).Contents (Elt F)) (x2 : (⟨S400000, .f32⟩ : BufTy).Contents (Elt F)) : (⟨S50000x512, .f32⟩ : BufTy).Contents (Elt F) :=
  mulf (Host.scatterAdd scatter_S50000x512_S400000x1_S400000x512_1_0_0_1 (broadcastInDim S50000x512 ![] bcast_S_S50000x512 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (mulf (Host.gather gather_S50000x512_S400000x1_S400000x512_1_0_n_n_0_1_1512 z (broadcastInDim S400000x1 ![0] bcast_S400000_S400000x1_0 (select (cmpi .slt (shapeCast _ (extractStridedSlice S1x400000 ![0, 0] x1 slices_S2x400000_S1x400000_0_0) shapeCasts_S1x400000_S400000) (broadcastInDim S400000 ![] bcast_S_S400000 (constantI S_ 32 0#32))) (addi (shapeCast _ (extractStridedSlice S1x400000 ![0, 0] x1 slices_S2x400000_S1x400000_0_0) shapeCasts_S1x400000_S400000) (broadcastInDim S400000 ![] bcast_S_S400000 (constantI S_ 32 50000#32))) (shapeCast _ (extractStridedSlice S1x400000 ![0, 0] x1 slices_S2x400000_S1x400000_0_0) shapeCasts_S1x400000_S400000)))) (broadcastInDim S400000x512 ![0, 1] bcast_S400000x1_S400000x512_0_1 (broadcastInDim S400000x1 ![0] bcast_S400000_S400000x1_0 x2)))) (broadcastInDim S50000x512 ![0, 1] bcast_S50000x1_S50000x512_0_1 (broadcastInDim S50000x1 ![0] bcast_S50000_S50000x1_0 (select (cmpf (F := F) .ogt (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32)))) (broadcastInDim S50000 ![] bcast_S_S50000 (id (constant S_ .f32 0x00000000#32))))))

/-- Layer `l`'s [512, 512] matrix out of a stack of three. -/
def wslice0 (x : (⟨S3x512x512, .f32⟩ : BufTy).Contents (Elt F)) : (⟨S512x512, .f32⟩ : BufTy).Contents (Elt F) :=
  shapeCast _ (extractStridedSlice S1x512x512 ![0, 0, 0] x slices_S3x512x512_S1x512x512_0_0_0) shapeCasts_S1x512x512_S512x512
def wslice1 (x : (⟨S3x512x512, .f32⟩ : BufTy).Contents (Elt F)) : (⟨S512x512, .f32⟩ : BufTy).Contents (Elt F) :=
  shapeCast _ (extractStridedSlice S1x512x512 ![1, 0, 0] x slices_S3x512x512_S1x512x512_1_0_0) shapeCasts_S1x512x512_S512x512
def wslice2 (x : (⟨S3x512x512, .f32⟩ : BufTy).Contents (Elt F)) : (⟨S512x512, .f32⟩ : BufTy).Contents (Elt F) :=
  shapeCast _ (extractStridedSlice S1x512x512 ![2, 0, 0] x slices_S3x512x512_S1x512x512_2_0_0) shapeCasts_S1x512x512_S512x512

/-- Layer `l`'s bias row out of the three, kept as a [1, 512] array. -/
def brow0 (x : (⟨S3x512, .f32⟩ : BufTy).Contents (Elt F)) : (⟨S1x512, .f32⟩ : BufTy).Contents (Elt F) := extractStridedSlice S1x512 ![0, 0] x slices_S3x512_S1x512_0_0
def brow1 (x : (⟨S3x512, .f32⟩ : BufTy).Contents (Elt F)) : (⟨S1x512, .f32⟩ : BufTy).Contents (Elt F) := extractStridedSlice S1x512 ![1, 0] x slices_S3x512_S1x512_1_0
def brow2 (x : (⟨S3x512, .f32⟩ : BufTy).Contents (Elt F)) : (⟨S1x512, .f32⟩ : BufTy).Contents (Elt F) := extractStridedSlice S1x512 ![2, 0] x slices_S3x512_S1x512_2_0

/-- The three layers composed, at the ideal values: each layer's node features are the previous layer's result,
    its aggregated features their aggregation. -/
def net (x0 : (⟨S50000x512, .f32⟩ : BufTy).Contents (Elt Ideal)) (x1 : (⟨S2x400000, .i32⟩ : BufTy).Contents (Elt Ideal)) (x2 : (⟨S400000, .f32⟩ : BufTy).Contents (Elt Ideal))
    (x3 x4 : (⟨S3x512x512, .f32⟩ : BufTy).Contents (Elt Ideal)) (x5 : (⟨S3x512, .f32⟩ : BufTy).Contents (Elt Ideal)) : S50000x512.Idx → EReal :=
  let k1 : S50000x512.Idx → EReal := layer (wslice0 (F := Ideal) x3) (wslice0 (F := Ideal) x4) (fun j => brow0 (F := Ideal) x5 (ix2 (0 : Fin 1) j)) (agg (F := Ideal) x0 x1 x2) x0
  let k2 : S50000x512.Idx → EReal := layer (wslice1 (F := Ideal) x3) (wslice1 (F := Ideal) x4) (fun j => brow1 (F := Ideal) x5 (ix2 (0 : Fin 1) j)) (agg (F := Ideal) k1 x1 x2) k1
  layer (wslice2 (F := Ideal) x3) (wslice2 (F := Ideal) x4) (fun j => brow2 (F := Ideal) x5 (ix2 (0 : Fin 1) j)) (agg (F := Ideal) k2 x1 x2) k2

/-- One layer as the host computes it: relu((a·Wl + bias) + z·Wr), the bias row reshaped to [512] and broadcast
    over the rows. -/
def hostLayer (wl wr : (⟨S512x512, .f32⟩ : BufTy).Contents (Elt F)) (b : (⟨S1x512, .f32⟩ : BufTy).Contents (Elt F)) (a z : (⟨S50000x512, .f32⟩ : BufTy).Contents (Elt F)) : (⟨S50000x512, .f32⟩ : BufTy).Contents (Elt F) :=
  maximumf (addf (addf (Host.dotGeneral dot_S50000x512_S512x512_S50000x512_1_0_0_1_n_n none a wl)
      (broadcastInDim S50000x512 ![0, 1] bcast_S1x512_S50000x512_0_1 (broadcastInDim S1x512 ![1] bcast_S512_S1x512_1 (shapeCast _ b shapeCasts_S1x512_S512))))
      (Host.dotGeneral dot_S50000x512_S512x512_S50000x512_1_0_0_1_n_n none z wr))
    (broadcastInDim S50000x512 ![] bcast_S_S50000x512 (constant S_ .f32 0x00000000#32))

/-- The host's three layers composed. -/
def hostnet (x0 : (⟨S50000x512, .f32⟩ : BufTy).Contents (Elt F)) (x1 : (⟨S2x400000, .i32⟩ : BufTy).Contents (Elt F)) (x2 : (⟨S400000, .f32⟩ : BufTy).Contents (Elt F))
    (x3 x4 : (⟨S3x512x512, .f32⟩ : BufTy).Contents (Elt F)) (x5 : (⟨S3x512, .f32⟩ : BufTy).Contents (Elt F)) : (⟨S50000x512, .f32⟩ : BufTy).Contents (Elt F) :=
  hostLayer (wslice2 x3) (wslice2 x4) (brow2 x5)
    (agg (hostLayer (wslice1 x3) (wslice1 x4) (brow1 x5) (agg (hostLayer (wslice0 x3) (wslice0 x4) (brow0 x5) (agg x0 x1 x2) x0) x1 x2)
      (hostLayer (wslice0 x3) (wslice0 x4) (brow0 x5) (agg x0 x1 x2) x0)) x1 x2)
    (hostLayer (wslice1 x3) (wslice1 x4) (brow1 x5) (agg (hostLayer (wslice0 x3) (wslice0 x4) (brow0 x5) (agg x0 x1 x2) x0) x1 x2)
      (hostLayer (wslice0 x3) (wslice0 x4) (brow0 x5) (agg x0 x1 x2) x0))

set_option maxRecDepth 8192 in
/-- The run's result term is the host's three layers composed, of the argument arrays. -/
theorem res_eq (m : (ℓ : Loc nD τ sig) → Buf (Elt F) ℓ) (c : Dev nD) :
    Cert.ReferenceIdeal.ValueP.res_main_v97 m c
      = hostnet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v97
  rfl

/-- The bias as the host spreads it: at (r, q) it is the bias row's entry q. -/
theorem bias_apply (b : FVec Ideal S1x512 .f32) (r : Fin 50000) (q : Fin 512) :
    (broadcastInDim S50000x512 ![0, 1] bcast_S1x512_S50000x512_0_1 (broadcastInDim S1x512 ![1] bcast_S512_S1x512_1 (shapeCast S512 b shapeCasts_S1x512_S512)) : S50000x512.Idx → EReal) (ix2 r q)
      = b (ix2 (0 : Fin 1) q) :=
  (broadcastInDim_apply _ _ _ (ix2 r q) (ix2 (0 : Fin 1) q) (fun a => by
      match a with
      | ⟨0, _⟩ => rfl
      | ⟨1, _⟩ => rfl)).trans
    ((broadcastInDim_apply _ _ _ (ix2 (0 : Fin 1) q) (ix1 q) (fun a => by
      match a with
      | ⟨0, _⟩ => rfl)).trans
      (shapeCast_1a_a_apply b shapeCasts_S1x512_S512 q))

/-- One host layer is the layer function. -/
theorem hostLayer_eq (wl wr : FVec Ideal S512x512 .f32) (b : FVec Ideal S1x512 .f32) (a z : FVec Ideal S50000x512 .f32) :
    hostLayer (F := Ideal) wl wr b a z = layer wl wr (fun j => b (ix2 (0 : Fin 1) j)) a z := by
  funext i
  obtain ⟨r, q, rfl⟩ : ∃ (r : Fin 50000) (q : Fin 512), i = ix2 r q := ⟨i 0, i 1, eq_ix2 i⟩
  have e1 := congrFun (dotGeneral_eq dot_S50000x512_S512x512_S50000x512_1_0_0_1_n_n rfl rfl rfl rfl rfl rfl none .single a wl) (ix2 r q)
  have e2 := congrFun (dotGeneral_eq dot_S50000x512_S512x512_S50000x512_1_0_0_1_n_n rfl rfl rfl rfl rfl rfl none .single z wr) (ix2 r q)
  have e3 := bias_apply b r q
  unfold hostLayer
  show max ((FloatOps.dotGeneral (F := Ideal) dot_S50000x512_S512x512_S50000x512_1_0_0_1_n_n none .single a wl (ix2 r q)
      + (broadcastInDim S50000x512 ![0, 1] bcast_S1x512_S50000x512_0_1 (broadcastInDim S1x512 ![1] bcast_S512_S1x512_1 (shapeCast S512 b shapeCasts_S1x512_S512)) : S50000x512.Idx → EReal) (ix2 r q))
      + FloatOps.dotGeneral (F := Ideal) dot_S50000x512_S512x512_S50000x512_1_0_0_1_n_n none .single z wr (ix2 r q)) z32 = _
  rw [e1, e2, e3]
  exact layer_bias_first wl wr (fun j => b (ix2 (0 : Fin 1) j)) a z (ix2 r q)

/-- The host's composition is the three layers composed. -/
theorem hostnet_eq (x0 : (⟨S50000x512, .f32⟩ : BufTy).Contents (Elt Ideal)) (x1 : (⟨S2x400000, .i32⟩ : BufTy).Contents (Elt Ideal)) (x2 : (⟨S400000, .f32⟩ : BufTy).Contents (Elt Ideal))
    (x3 x4 : (⟨S3x512x512, .f32⟩ : BufTy).Contents (Elt Ideal)) (x5 : (⟨S3x512, .f32⟩ : BufTy).Contents (Elt Ideal)) :
    hostnet (F := Ideal) x0 x1 x2 x3 x4 x5 = net x0 x1 x2 x3 x4 x5 := by
  unfold hostnet net
  simp only [hostLayer_eq]

end Cert.ReferenceIdeal.Net

end
-- ==== Proof.KernelRun.lean ====
/-
  The idealized kernel's run, with its result named.  The program is three launches of the layer kernel among
  stretches of host operations; run from any memory, every weakly fair execution terminates without a fault, the
  six argument arrays end as launched, and the result array (the third launch's output) ends at the contents the
  last segment boundary gives it: the third launch's output array after all of its write-backs, computed from the
  buffer contents at that launch's entry.
-/
import proofs.«138807_j57509612093516_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the arguments end as launched. -/
theorem run : θ_run defs (onTc (τ := τ) (main (F := F))) ⟨m, fun _ => 0, ρ⟩ (fun r => ∀ c : Dev nD,
      r.2.mem ((c.tc : Thread nD τ).loc main_v82) = W8 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v82 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelNet.lean ====
/-
  The pieces of the kernel program's host side, as functions: the neighbour aggregation, each layer's two weight
  matrices and bias row out of the stacked arguments, and the three layers composed.
-/
import proofs.«138807_j57509612093516_1_alg».proof.Proof.Gen.KernelIdeal
import proofs.«138807_j57509612093516_1_alg».proof.Proof.Layer

noncomputable section

namespace Cert.KernelIdeal.Net

open Cert.KernelIdeal Cert.KernelIdeal.Gen Idealize.ShloMosaic Idealize.ShloMosaic.TcCoe Idealize.SL.Sem Idealize.ShloMosaic.StableHlo
open Idealize.ShloMosaic.ValueIdx Cert.Sage Cert.LibMatmul

variable {F : FTy → Type} [FloatOps F]

/-- The neighbour aggregation of node features `z` over the edge list `x1` (row 0 the sources, row 1 the
    destinations, a negative source index wrapped once by the node count) with edge weights `x2`: the weighted
    source rows summed into their destination rows, each row then scaled by the inverse in-degree of its node
    (0 where the node has no incoming edge). -/
def agg (z : (⟨S50000x512, .f32⟩ : BufTy).Contents (Elt F)) (x1 : (⟨S2x400000, .i32⟩ : BufTy).Contents (Elt F)) (x2 : (⟨S400000, .f32⟩ : BufTy).Contents (Elt F)) : (⟨S50000x512, .f32⟩ : BufTy).Contents (Elt F) :=
  mulf (Host.scatterAdd scatter_S50000x512_S400000x1_S400000x512_1_0_0_1 (broadcastInDim S50000x512 ![] bcast_S_S50000x512 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (mulf (Host.gather gather_S50000x512_S400000x1_S400000x512_1_0_n_n_0_1_1512 z (broadcastInDim S400000x1 ![0] bcast_S400000_S400000x1_0 (select (cmpi .slt (shapeCast _ (extractStridedSlice S1x400000 ![0, 0] x1 slices_S2x400000_S1x400000_0_0) shapeCasts_S1x400000_S400000) (broadcastInDim S400000 ![] bcast_S_S400000 (constantI S_ 32 0#32))) (addi (shapeCast _ (extractStridedSlice S1x400000 ![0, 0] x1 slices_S2x400000_S1x400000_0_0) shapeCasts_S1x400000_S400000) (broadcastInDim S400000 ![] bcast_S_S400000 (constantI S_ 32 50000#32))) (shapeCast _ (extractStridedSlice S1x400000 ![0, 0] x1 slices_S2x400000_S1x400000_0_0) shapeCasts_S1x400000_S400000)))) (broadcastInDim S400000x512 ![0, 1] bcast_S400000x1_S400000x512_0_1 (broadcastInDim S400000x1 ![0] bcast_S400000_S400000x1_0 x2)))) (broadcastInDim S50000x512 ![0, 1] bcast_S50000x1_S50000x512_0_1 (broadcastInDim S50000x1 ![0] bcast_S50000_S50000x1_0 (select (cmpf (F := F) .ogt (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32)))) (broadcastInDim S50000 ![] bcast_S_S50000 (id (constant S_ .f32 0x00000000#32))))))

/-- Layer `l`'s [512, 512] matrix out of a stack of three. -/
def wslice0 (x : (⟨S3x512x512, .f32⟩ : BufTy).Contents (Elt F)) : (⟨S512x512, .f32⟩ : BufTy).Contents (Elt F) :=
  shapeCast _ (extractStridedSlice S1x512x512 ![0, 0, 0] x slices_S3x512x512_S1x512x512_0_0_0) shapeCasts_S1x512x512_S512x512
def wslice1 (x : (⟨S3x512x512, .f32⟩ : BufTy).Contents (Elt F)) : (⟨S512x512, .f32⟩ : BufTy).Contents (Elt F) :=
  shapeCast _ (extractStridedSlice S1x512x512 ![1, 0, 0] x slices_S3x512x512_S1x512x512_1_0_0) shapeCasts_S1x512x512_S512x512
def wslice2 (x : (⟨S3x512x512, .f32⟩ : BufTy).Contents (Elt F)) : (⟨S512x512, .f32⟩ : BufTy).Contents (Elt F) :=
  shapeCast _ (extractStridedSlice S1x512x512 ![2, 0, 0] x slices_S3x512x512_S1x512x512_2_0_0) shapeCasts_S1x512x512_S512x512

/-- Layer `l`'s bias row out of the three, kept as a [1, 512] array. -/
def brow0 (x : (⟨S3x512, .f32⟩ : BufTy).Contents (Elt F)) : (⟨S1x512, .f32⟩ : BufTy).Contents (Elt F) := extractStridedSlice S1x512 ![0, 0] x slices_S3x512_S1x512_0_0
def brow1 (x : (⟨S3x512, .f32⟩ : BufTy).Contents (Elt F)) : (⟨S1x512, .f32⟩ : BufTy).Contents (Elt F) := extractStridedSlice S1x512 ![1, 0] x slices_S3x512_S1x512_1_0
def brow2 (x : (⟨S3x512, .f32⟩ : BufTy).Contents (Elt F)) : (⟨S1x512, .f32⟩ : BufTy).Contents (Elt F) := extractStridedSlice S1x512 ![2, 0] x slices_S3x512_S1x512_2_0

/-- The three layers composed, at the ideal values: each layer's node features are the previous layer's result,
    its aggregated features their aggregation. -/
def net (x0 : (⟨S50000x512, .f32⟩ : BufTy).Contents (Elt Ideal)) (x1 : (⟨S2x400000, .i32⟩ : BufTy).Contents (Elt Ideal)) (x2 : (⟨S400000, .f32⟩ : BufTy).Contents (Elt Ideal))
    (x3 x4 : (⟨S3x512x512, .f32⟩ : BufTy).Contents (Elt Ideal)) (x5 : (⟨S3x512, .f32⟩ : BufTy).Contents (Elt Ideal)) : S50000x512.Idx → EReal :=
  let k1 : S50000x512.Idx → EReal := layer (wslice0 (F := Ideal) x3) (wslice0 (F := Ideal) x4) (fun j => brow0 (F := Ideal) x5 (ix2 (0 : Fin 1) j)) (agg (F := Ideal) x0 x1 x2) x0
  let k2 : S50000x512.Idx → EReal := layer (wslice1 (F := Ideal) x3) (wslice1 (F := Ideal) x4) (fun j => brow1 (F := Ideal) x5 (ix2 (0 : Fin 1) j)) (agg (F := Ideal) k1 x1 x2) k1
  layer (wslice2 (F := Ideal) x3) (wslice2 (F := Ideal) x4) (fun j => brow2 (F := Ideal) x5 (ix2 (0 : Fin 1) j)) (agg (F := Ideal) k2 x1 x2) k2

end Cert.KernelIdeal.Net

end
-- ==== Proof.KernelLeaves.lean ====
/-
  Buffers the later launches read that were written before the first launch, or never written: the edge list's
  source and destination rows, the inverse in-degree column, and the weight, bias and edge-weight arguments.  No
  launch and no later host operation writes them, so at the entry of the second and of the third launch they still
  hold what the first stretch of host operations computed from the arguments.
-/
import proofs.«138807_j57509612093516_1_alg».proof.Proof.Gen.KernelIdeal.Frame
import proofs.«138807_j57509612093516_1_alg».proof.Proof.KernelNet

set_option maxRecDepth 16384

noncomputable section

namespace Cert.KernelIdeal.Leaves

open Cert.KernelIdeal Cert.KernelIdeal.Gen Cert.KernelIdeal.Net
open Idealize.ShloMosaic Idealize.ShloMosaic.TcCoe Idealize.SL.Sem Idealize.ShloMosaic.StableHlo

variable {F : FTy → Type} [FloatOps F]

/-- The edge list's source row. -/
def srcRow (x1 : (⟨S2x400000, .i32⟩ : BufTy).Contents (Elt F)) : (⟨S400000, .i32⟩ : BufTy).Contents (Elt F) :=
  shapeCast _ (extractStridedSlice S1x400000 ![0, 0] x1 slices_S2x400000_S1x400000_0_0) shapeCasts_S1x400000_S400000
/-- The edge list's destination row. -/
def dstRow (x1 : (⟨S2x400000, .i32⟩ : BufTy).Contents (Elt F)) : (⟨S400000, .i32⟩ : BufTy).Contents (Elt F) :=
  shapeCast _ (extractStridedSlice S1x400000 ![1, 0] x1 slices_S2x400000_S1x400000_1_0) shapeCasts_S1x400000_S400000
/-- The inverse in-degree of every node as a column: 1 / (number of edges into the node), 0 where there is none. -/
def invCol (x1 : (⟨S2x400000, .i32⟩ : BufTy).Contents (Elt F)) : (⟨S50000x1, .f32⟩ : BufTy).Contents (Elt F) :=
  broadcastInDim S50000x1 ![0] bcast_S50000_S50000x1_0 (select (cmpf (F := F) .ogt (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32)))) (broadcastInDim S50000 ![] bcast_S_S50000 (id (constant S_ .f32 0x00000000#32))))

/-- The inverse in-degree of every node: 1 / (number of edges into the node), 0 where there is none. -/
def invRow (x1 : (⟨S2x400000, .i32⟩ : BufTy).Contents (Elt F)) : (⟨S50000, .f32⟩ : BufTy).Contents (Elt F) :=
  select (cmpf (F := F) .ogt (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S400000x1_S400000_n_0_0_1 (broadcastInDim S50000 ![] bcast_S_S50000 (constant S_ .f32 0x00000000#32)) (broadcastInDim S400000x1 ![0] bcast_S400000_S400000x1_0 (shapeCast _ (extractStridedSlice S1x400000 ![1, 0] x1 slices_S2x400000_S1x400000_1_0) shapeCasts_S1x400000_S400000)) (broadcastInDim S400000 ![] bcast_S_S400000 (constant S_ .f32 0x3F800000#32)))) (broadcastInDim S50000 ![] bcast_S_S50000 (id (constant S_ .f32 0x00000000#32)))

variable (m : (ℓ : Loc nD τ sig) → Buf (Elt F) ℓ) (ρ : Dev nD → PrngReg) (c : Dev nD)

/-! ## What the first launch's aggregation reads, before the stretch that computes it -/

theorem at2_v12 : W2 m ρ c (Proc.devRef .tc main_v12) = invRow (m ((c : Thread nD τ).loc main_arg1)) := by
  show StableHlo.after hostOps0_1 (StableHlo.after hostOps0 (W0 m ρ c)) (Proc.devRef .tc main_v12) = _
  after_results_simp <;> rfl

theorem at2_v1 : W2 m ρ c (Proc.devRef .tc main_v1) = srcRow (m ((c : Thread nD τ).loc main_arg1)) := by
  show StableHlo.after hostOps0_1 (StableHlo.after hostOps0 (W0 m ρ c)) (Proc.devRef .tc main_v1) = _
  after_results_simp <;> rfl

theorem at2_v3 : W2 m ρ c (Proc.devRef .tc main_v3) = dstRow (m ((c : Thread nD τ).loc main_arg1)) := by
  show StableHlo.after hostOps0_1 (StableHlo.after hostOps0 (W0 m ρ c)) (Proc.devRef .tc main_v3) = _
  after_results_simp <;> rfl

theorem at2_arg0 : W2 m ρ c (Proc.devRef .tc main_arg0) = (m ((c : Thread nD τ).loc main_arg0)) := by
  show StableHlo.after hostOps0_1 (StableHlo.after hostOps0 (W0 m ρ c)) (Proc.devRef .tc main_arg0) = _
  after_results_simp <;> rfl

theorem at2_arg2 : W2 m ρ c (Proc.devRef .tc main_arg2) = (m ((c : Thread nD τ).loc main_arg2)) := by
  show StableHlo.after hostOps0_1 (StableHlo.after hostOps0 (W0 m ρ c)) (Proc.devRef .tc main_arg2) = _
  after_results_simp <;> rfl

/-! ## What the later launches read, through the launches and stretches that leave it alone -/

/-- `main_arg2` at the first launch's entry. -/
theorem at3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
/-- The second stretch of host operations does not write `main_arg2`. -/
theorem keep1_arg2 : W5 m ρ c (Proc.devRef .tc main_arg2) = W4 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg2` after the first launch. -/
theorem at4_arg2 : W4 m ρ c (Proc.devRef .tc main_arg2) = (m ((c : Thread nD τ).loc main_arg2)) :=
  (W4_of_ne m ρ c main_arg2 (by decide)).trans (at3_arg2 m ρ c)
/-- `main_arg2` after the second launch. -/
theorem at6_arg2 : W6 m ρ c (Proc.devRef .tc main_arg2) = (m ((c : Thread nD τ).loc main_arg2)) :=
  (W6_of_ne m ρ c main_arg2 (by decide)).trans ((keep1_arg2 m ρ c).trans (at4_arg2 m ρ c))

/-- `main_arg3` at the first launch's entry. -/
theorem at3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
/-- The second stretch of host operations does not write `main_arg3`. -/
theorem keep1_arg3 : W5 m ρ c (Proc.devRef .tc main_arg3) = W4 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg3` after the first launch. -/
theorem at4_arg3 : W4 m ρ c (Proc.devRef .tc main_arg3) = (m ((c : Thread nD τ).loc main_arg3)) :=
  (W4_of_ne m ρ c main_arg3 (by decide)).trans (at3_arg3 m ρ c)
/-- `main_arg3` after the second launch. -/
theorem at6_arg3 : W6 m ρ c (Proc.devRef .tc main_arg3) = (m ((c : Thread nD τ).loc main_arg3)) :=
  (W6_of_ne m ρ c main_arg3 (by decide)).trans ((keep1_arg3 m ρ c).trans (at4_arg3 m ρ c))

/-- `main_arg4` at the first launch's entry. -/
theorem at3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
/-- The second stretch of host operations does not write `main_arg4`. -/
theorem keep1_arg4 : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg4` after the first launch. -/
theorem at4_arg4 : W4 m ρ c (Proc.devRef .tc main_arg4) = (m ((c : Thread nD τ).loc main_arg4)) :=
  (W4_of_ne m ρ c main_arg4 (by decide)).trans (at3_arg4 m ρ c)
/-- `main_arg4` after the second launch. -/
theorem at6_arg4 : W6 m ρ c (Proc.devRef .tc main_arg4) = (m ((c : Thread nD τ).loc main_arg4)) :=
  (W6_of_ne m ρ c main_arg4 (by decide)).trans ((keep1_arg4 m ρ c).trans (at4_arg4 m ρ c))

/-- `main_arg5` at the first launch's entry. -/
theorem at3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
/-- The second stretch of host operations does not write `main_arg5`. -/
theorem keep1_arg5 : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg5` after the first launch. -/
theorem at4_arg5 : W4 m ρ c (Proc.devRef .tc main_arg5) = (m ((c : Thread nD τ).loc main_arg5)) :=
  (W4_of_ne m ρ c main_arg5 (by decide)).trans (at3_arg5 m ρ c)
/-- `main_arg5` after the second launch. -/
theorem at6_arg5 : W6 m ρ c (Proc.devRef .tc main_arg5) = (m ((c : Thread nD τ).loc main_arg5)) :=
  (W6_of_ne m ρ c main_arg5 (by decide)).trans ((keep1_arg5 m ρ c).trans (at4_arg5 m ρ c))

/-- `main_v1` at the first launch's entry. -/
theorem at3_v1 : W3 m ρ c (Proc.devRef .tc main_v1) = srcRow (m ((c : Thread nD τ).loc main_arg1)) := by
  show StableHlo.after hostOps0_2 (StableHlo.after hostOps0_1 (StableHlo.after hostOps0 (W0 m ρ c))) (Proc.devRef .tc main_v1) = _
  after_results_simp <;> rfl
/-- The second stretch of host operations does not write `main_v1`. -/
theorem keep1_v1 : W5 m ρ c (Proc.devRef .tc main_v1) = W4 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v1` after the first launch. -/
theorem at4_v1 : W4 m ρ c (Proc.devRef .tc main_v1) = srcRow (m ((c : Thread nD τ).loc main_arg1)) :=
  (W4_of_ne m ρ c main_v1 (by decide)).trans (at3_v1 m ρ c)
/-- `main_v1` after the second launch. -/
theorem at6_v1 : W6 m ρ c (Proc.devRef .tc main_v1) = srcRow (m ((c : Thread nD τ).loc main_arg1)) :=
  (W6_of_ne m ρ c main_v1 (by decide)).trans ((keep1_v1 m ρ c).trans (at4_v1 m ρ c))

/-- `main_v3` at the first launch's entry. -/
theorem at3_v3 : W3 m ρ c (Proc.devRef .tc main_v3) = dstRow (m ((c : Thread nD τ).loc main_arg1)) := by
  show StableHlo.after hostOps0_2 (StableHlo.after hostOps0_1 (StableHlo.after hostOps0 (W0 m ρ c))) (Proc.devRef .tc main_v3) = _
  after_results_simp <;> rfl
/-- The second stretch of host operations does not write `main_v3`. -/
theorem keep1_v3 : W5 m ρ c (Proc.devRef .tc main_v3) = W4 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v3` after the first launch. -/
theorem at4_v3 : W4 m ρ c (Proc.devRef .tc main_v3) = dstRow (m ((c : Thread nD τ).loc main_arg1)) :=
  (W4_of_ne m ρ c main_v3 (by decide)).trans (at3_v3 m ρ c)
/-- `main_v3` after the second launch. -/
theorem at6_v3 : W6 m ρ c (Proc.devRef .tc main_v3) = dstRow (m ((c : Thread nD τ).loc main_arg1)) :=
  (W6_of_ne m ρ c main_v3 (by decide)).trans ((keep1_v3 m ρ c).trans (at4_v3 m ρ c))

/-- `main_v13` at the first launch's entry. -/
theorem at3_v13 : W3 m ρ c (Proc.devRef .tc main_v13) = invCol (m ((c : Thread nD τ).loc main_arg1)) := by
  show StableHlo.after hostOps0_2 (StableHlo.after hostOps0_1 (StableHlo.after hostOps0 (W0 m ρ c))) (Proc.devRef .tc main_v13) = _
  after_results_simp <;> rfl
/-- The second stretch of host operations does not write `main_v13`. -/
theorem keep1_v13 : W5 m ρ c (Proc.devRef .tc main_v13) = W4 m ρ c (Proc.devRef .tc main_v13) :=
  StableHlo.after_of_forall_not_mem (b := Proc.devRef .tc main_v13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v13` after the first launch. -/
theorem at4_v13 : W4 m ρ c (Proc.devRef .tc main_v13) = invCol (m ((c : Thread nD τ).loc main_arg1)) :=
  (W4_of_ne m ρ c main_v13 (by decide)).trans (at3_v13 m ρ c)
/-- `main_v13` after the second launch. -/
theorem at6_v13 : W6 m ρ c (Proc.devRef .tc main_v13) = invCol (m ((c : Thread nD τ).loc main_arg1)) :=
  (W6_of_ne m ρ c main_v13 (by decide)).trans ((keep1_v13 m ρ c).trans (at4_v13 m ρ c))

end Cert.KernelIdeal.Leaves

end
-- ==== Proof.Payload.lean ====
/-
  What the kernel body stores, as the layer on its loaded blocks.  The body loads a block of rows of the aggregated
  features and of the node features, the two weight matrices and the bias row, and stores
  max((a·Wl + z·Wr) + bias, 0).  At the ideal values the changes of float format are the identity and a product into
  the zero accumulator is the plain sum over the contracted axis, so the stored block is the layer of the loaded
  blocks, the bias row read at its one row.  The three launches have the same body.
-/
import proofs.«138807_j57509612093516_1_alg».proof.Proof.Gen.KernelIdeal.Skeleton
import proofs.«138807_j57509612093516_1_alg».proof.Proof.Layer
import Idealize.ShloMosaic.Lib.Pipeline.Value
import Idealize.ShloMosaic.Lib.ValueLayout

noncomputable section

namespace Cert.KernelIdeal.Payload

open Cert.KernelIdeal Cert.KernelIdeal.Gen
open Idealize.ShloMosaic Idealize.ShloMosaic.ValueIdx Cert.Sage Cert.LibMatmul

/-- At the ideal values a narrowing of the float format changes nothing. -/
theorem truncf_id {s : Shape} {φ ψ : FTy} (x : FVec Ideal s φ) (h : ψ.bits < φ.bits) : truncf ψ x h = x := rfl

/-- The body's arithmetic on five loaded blocks is the layer of those blocks. -/
theorem ops_eq (x0 x1 : FVec Ideal S1000x512 .bf16) (x2 x3 : FVec Ideal S512x512 .bf16) (x4 : FVec Ideal S1x512 .f32) :
    maximumf (addf (addf (matmul dot_S1000x512_S512x512_S1000x512_1_0_0_1_n_n none x0 x2 (constant S1000x512 .f32 0x00000000#32))
        (matmul dot_S1000x512_S512x512_S1000x512_1_0_0_1_n_n none x1 x3 (constant S1000x512 .f32 0x00000000#32)))
        (broadcastTo S1000x512 x4 broadcasts_S1x512_S1000x512)) (broadcast S1000x512 (Scalar.ofBits (F := Ideal) .f32 0x00000000#32))
      = layer x2 x3 (fun j => x4 (ix2 (0 : Fin 1) j)) x0 x1 := by
  funext y
  obtain ⟨r, q, rfl⟩ : ∃ (r : Fin 1000) (q : Fin 512), y = ix2 r q := ⟨y 0, y 1, eq_ix2 y⟩
  show max ((FloatOps.matmul dot_S1000x512_S512x512_S1000x512_1_0_0_1_n_n none x0 x2 (constant S1000x512 .f32 0x00000000#32) (ix2 r q)
      + FloatOps.matmul dot_S1000x512_S512x512_S1000x512_1_0_0_1_n_n none x1 x3 (constant S1000x512 .f32 0x00000000#32) (ix2 r q))
      + broadcastTo S1000x512 x4 broadcasts_S1x512_S1000x512 (ix2 r q)) z32 = _
  rw [matmul_zero_eq dot_S1000x512_S512x512_S1000x512_1_0_0_1_n_n rfl rfl rfl rfl rfl rfl,
    matmul_zero_eq dot_S1000x512_S512x512_S1000x512_1_0_0_1_n_n rfl rfl rfl rfl rfl rfl, broadcastTo_1b_ab_apply]
  rfl

/-- The first launch's stored block. -/
theorem pay0_eq (x0 x1 : Vec Ideal S1000x512 .f32) (x2 x3 : Vec Ideal S512x512 .f32) (x4 : Vec Ideal S1x512 .f32) :
    k0_pay1 (F := Ideal) x0 x1 x2 x3 x4 = layer x2 x3 (fun j => x4 (ix2 (0 : Fin 1) j)) x0 x1 := by
  unfold k0_pay1
  simp only [shapeCast_self, truncf_id]
  exact ops_eq x0 x1 x2 x3 x4

/-- The second launch's stored block. -/
theorem pay1_eq (x0 x1 : Vec Ideal S1000x512 .f32) (x2 x3 : Vec Ideal S512x512 .f32) (x4 : Vec Ideal S1x512 .f32) :
    k1_pay1 (F := Ideal) x0 x1 x2 x3 x4 = layer x2 x3 (fun j => x4 (ix2 (0 : Fin 1) j)) x0 x1 := by
  unfold k1_pay1
  simp only [shapeCast_self, truncf_id]
  exact ops_eq x0 x1 x2 x3 x4

/-- The third launch's stored block. -/
theorem pay2_eq (x0 x1 : Vec Ideal S1000x512 .f32) (x2 x3 : Vec Ideal S512x512 .f32) (x4 : Vec Ideal S1x512 .f32) :
    k2_pay1 (F := Ideal) x0 x1 x2 x3 x4 = layer x2 x3 (fun j => x4 (ix2 (0 : Fin 1) j)) x0 x1 := by
  unfold k2_pay1
  simp only [shapeCast_self, truncf_id]
  exact ops_eq x0 x1 x2 x3 x4

end Cert.KernelIdeal.Payload

end
-- ==== Proof.Blocks0.lean ====
/-
  Launch 0 of the layer kernel, read as a value: for any buffer contents V at the launch's entry, its output array
  after all fifty write-backs is the layer of the five arrays the launch reads.  Point t of the grid loads rows
  1000·t … 1000·t + 999 of the aggregated and of the node features and the whole weights and bias, and writes back the
  same rows of the output; a row of the layer depends on that row of the two operands only, and the fifty row blocks
  cover the array.
-/
import proofs.«138807_j57509612093516_1_alg».proof.Proof.Gen.KernelIdeal.Frame
import proofs.«138807_j57509612093516_1_alg».proof.Proof.Payload
import Idealize.ShloMosaic.Lib.Pipeline.Value

set_option maxRecDepth 16384

noncomputable section

namespace Cert.KernelIdeal.Blocks0

open Cert.KernelIdeal Cert.KernelIdeal.Gen Cert.KernelIdeal.Payload
open Idealize.ShloMosaic Idealize.ShloMosaic.TcCoe Idealize.SL.Sem
open Idealize.ShloMosaic.ValueIdx Cert.Sage Cert.LibMatmul
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The printed index maps of launch 0, decided over its 50 grid points: the two row-blocked operands and the
    output sit at block row t, the weights and the bias at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What launch 0's output array ends holding: the layer of the arrays the launch finds. -/
abbrev G0 (c : Dev nD) : S50000x512.Idx → EReal :=
  layer (V c main_v30 : S512x512.Idx → EReal) (V c main_v32 : S512x512.Idx → EReal) (fun j => (V c main_v35 : S1x512.Idx → EReal) (ix2 (0 : Fin 1) j))
    (V c main_v28 : S50000x512.Idx → EReal) (V c main_arg0 : S50000x512.Idx → EReal)

/-- What point t writes back is block t of that array: rows 1000·t … 1000·t + 999 of the layer, which read the same
    rows of the two row-blocked operands and the whole weights and bias. -/
theorem flushed0 (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S1000x512) hz, View.ld_unit_zero (S := S512x512) hz, View.ld_unit_zero (S := S1x512) hz]
  rw [pay0_eq]
  obtain ⟨e00, e01, e10, e11, e20, e21, e30, e31, e40, e41, e50, e51⟩ := idx0 t
  have hN : t.val < 50 := Nat.lt_of_lt_of_eq t.isLt N_0
  funext y
  obtain ⟨r, q, rfl⟩ : ∃ (r : Fin 1000) (q : Fin 512), y = ix2 r q := ⟨y 0, y 1, eq_ix2 y⟩
  have hR : t.val * 1000 + r.val < 50000 := by have := r.isLt; omega
  have hemb : ((cfg0.win 5).blk t).view.emb (ix2 r q) = ix2 (⟨t.val * 1000 + r.val, hR⟩ : Fin 50000) q := by
    funext a; apply Fin.ext
    match a with
    | ⟨0, _⟩ => show win0_5.index t (0 : Fin 2) * 1000 + 1 * r.val = t.val * 1000 + r.val; rw [e50]; omega
    | ⟨1, _⟩ => show win0_5.index t (1 : Fin 2) * 512 + 1 * q.val = q.val; rw [e51]; omega
  have hwl : (iblk0 V c 2 t : S512x512.Idx → EReal) = (V c main_v30 : S512x512.Idx → EReal) := by
    funext j
    show (V c main_v30 : S512x512.Idx → EReal) (((cfg0.win 2).blk t).view.emb j) = (V c main_v30 : S512x512.Idx → EReal) j
    refine congrArg _ (funext fun a => Fin.ext ?_)
    match a with
    | ⟨0, _⟩ => show win0_2.index t (0 : Fin 2) * 512 + 1 * (j 0).val = (j 0).val; rw [e20]; omega
    | ⟨1, _⟩ => show win0_2.index t (1 : Fin 2) * 512 + 1 * (j 1).val = (j 1).val; rw [e21]; omega
  have hwr : (iblk0 V c 3 t : S512x512.Idx → EReal) = (V c main_v32 : S512x512.Idx → EReal) := by
    funext j
    show (V c main_v32 : S512x512.Idx → EReal) (((cfg0.win 3).blk t).view.emb j) = (V c main_v32 : S512x512.Idx → EReal) j
    refine congrArg _ (funext fun a => Fin.ext ?_)
    match a with
    | ⟨0, _⟩ => show win0_3.index t (0 : Fin 2) * 512 + 1 * (j 0).val = (j 0).val; rw [e30]; omega
    | ⟨1, _⟩ => show win0_3.index t (1 : Fin 2) * 512 + 1 * (j 1).val = (j 1).val; rw [e31]; omega
  have hb : (iblk0 V c 4 t : S1x512.Idx → EReal) = (V c main_v35 : S1x512.Idx → EReal) := by
    funext j
    show (V c main_v35 : S1x512.Idx → EReal) (((cfg0.win 4).blk t).view.emb j) = (V c main_v35 : S1x512.Idx → EReal) j
    refine congrArg _ (funext fun a => Fin.ext ?_)
    match a with
    | ⟨0, _⟩ => show win0_4.index t (0 : Fin 2) * 1 + 1 * (j 0).val = (j 0).val; rw [e40]; omega
    | ⟨1, _⟩ => show win0_4.index t (1 : Fin 2) * 512 + 1 * (j 1).val = (j 1).val; rw [e41]; omega
  have ha : ∀ k : Fin 512, (iblk0 V c 0 t : S1000x512.Idx → EReal) (ix2 r k)
      = (V c main_v28 : S50000x512.Idx → EReal) (ix2 (⟨t.val * 1000 + r.val, hR⟩ : Fin 50000) k) := fun k => by
    show (V c main_v28 : S50000x512.Idx → EReal) (((cfg0.win 0).blk t).view.emb (ix2 r k)) = _
    refine congrArg _ (funext fun a => Fin.ext ?_)
    match a with
    | ⟨0, _⟩ => show win0_0.index t (0 : Fin 2) * 1000 + 1 * r.val = t.val * 1000 + r.val; rw [e00]; omega
    | ⟨1, _⟩ => show win0_0.index t (1 : Fin 2) * 512 + 1 * k.val = k.val; rw [e01]; omega
  have hzz : ∀ k : Fin 512, (iblk0 V c 1 t : S1000x512.Idx → EReal) (ix2 r k)
      = (V c main_arg0 : S50000x512.Idx → EReal) (ix2 (⟨t.val * 1000 + r.val, hR⟩ : Fin 50000) k) := fun k => by
    show (V c main_arg0 : S50000x512.Idx → EReal) (((cfg0.win 1).blk t).view.emb (ix2 r k)) = _
    refine congrArg _ (funext fun a => Fin.ext ?_)
    match a with
    | ⟨0, _⟩ => show win0_1.index t (0 : Fin 2) * 1000 + 1 * r.val = t.val * 1000 + r.val; rw [e10]; omega
    | ⟨1, _⟩ => show win0_1.index t (1 : Fin 2) * 512 + 1 * k.val = k.val; rw [e11]; omega
  show layer (iblk0 V c 2 t : S512x512.Idx → EReal) (iblk0 V c 3 t : S512x512.Idx → EReal) (fun j => (iblk0 V c 4 t : S1x512.Idx → EReal) (ix2 (0 : Fin 1) j))
      (iblk0 V c 0 t : S1000x512.Idx → EReal) (iblk0 V c 1 t : S1000x512.Idx → EReal) (ix2 r q)
    = G0 V c (((cfg0.win 5).blk t).view.emb (ix2 r q))
  rw [hemb, hwl, hwr, hb]
  exact layer_rows _ _ _ _ _ _ _ r ⟨t.val * 1000 + r.val, hR⟩ q ha hzz

/-- Every index of the output array lies in the block of the point its row falls in. -/
theorem cover0 (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  have ht : (i 0).val / 1000 < cfg0.N := by rw [show cfg0.N = 50 from N_0]; omega
  obtain ⟨e00, e01, e10, e11, e20, e21, e30, e31, e40, e41, e50, e51⟩ := idx0 ⟨(i 0).val / 1000, ht⟩
  refine ⟨⟨(i 0).val / 1000, ht⟩, flush0_5 _, ?_⟩
  show i ∈ ((View.whole main_v36).slice (win0_5.rect ⟨(i 0).val / 1000, ht⟩)).set
  rw [View.set_slice_whole, Rect.mem_set_unit]
  intro a
  match a with
  | ⟨0, _⟩ =>
    show win0_5.index ⟨(i 0).val / 1000, ht⟩ (0 : Fin 2) * 1000 ≤ (i 0).val ∧ (i 0).val < win0_5.index ⟨(i 0).val / 1000, ht⟩ (0 : Fin 2) * 1000 + 1000
    rw [e50]; show (i 0).val / 1000 * 1000 ≤ (i 0).val ∧ (i 0).val < (i 0).val / 1000 * 1000 + 1000; omega
  | ⟨1, _⟩ =>
    show win0_5.index ⟨(i 0).val / 1000, ht⟩ (1 : Fin 2) * 512 ≤ (i 1).val ∧ (i 1).val < win0_5.index ⟨(i 0).val / 1000, ht⟩ (1 : Fin 2) * 512 + 512
    rw [e51]; omega

/-- Launch 0's output array after the run is the layer of the arrays the launch finds. -/
theorem final0 (c : Dev nD) : (dat0 (F := Ideal) V c).arrAt 5 cfg0.N = G0 V c :=
  (dat0 (F := Ideal) V c).arrAt_eq_of_cover 5 (G0 V c) (fun t _ => flushed0 V c t) (cover0)

end Cert.KernelIdeal.Blocks0

end
-- ==== Proof.Blocks1.lean ====
/-
  Launch 1 of the layer kernel, read as a value: for any buffer contents V at the launch's entry, its output array
  after all fifty write-backs is the layer of the five arrays the launch reads.  Point t of the grid loads rows
  1000·t … 1000·t + 999 of the aggregated and of the node features and the whole weights and bias, and writes back the
  same rows of the output; a row of the layer depends on that row of the two operands only, and the fifty row blocks
  cover the array.
-/
import proofs.«138807_j57509612093516_1_alg».proof.Proof.Gen.KernelIdeal.Frame
import proofs.«138807_j57509612093516_1_alg».proof.Proof.Payload
import Idealize.ShloMosaic.Lib.Pipeline.Value

set_option maxRecDepth 16384

noncomputable section

namespace Cert.KernelIdeal.Blocks1

open Cert.KernelIdeal Cert.KernelIdeal.Gen Cert.KernelIdeal.Payload
open Idealize.ShloMosaic Idealize.ShloMosaic.TcCoe Idealize.SL.Sem
open Idealize.ShloMosaic.ValueIdx Cert.Sage Cert.LibMatmul
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 1 -/

/-- The printed index maps of launch 1, decided over its 50 grid points: the two row-blocked operands and the
    output sit at block row t, the weights and the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What launch 1's output array ends holding: the layer of the arrays the launch finds. -/
abbrev G1 (c : Dev nD) : S50000x512.Idx → EReal :=
  layer (V c main_v53 : S512x512.Idx → EReal) (V c main_v55 : S512x512.Idx → EReal) (fun j => (V c main_v58 : S1x512.Idx → EReal) (ix2 (0 : Fin 1) j))
    (V c main_v51 : S50000x512.Idx → EReal) (V c main_v36 : S50000x512.Idx → EReal)

/-- What point t writes back is block t of that array: rows 1000·t … 1000·t + 999 of the layer, which read the same
    rows of the two row-blocked operands and the whole weights and bias. -/
theorem flushed1 (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz]
  simp only [View.ld_unit_zero (S := S1000x512) hz, View.ld_unit_zero (S := S512x512) hz, View.ld_unit_zero (S := S1x512) hz]
  rw [pay1_eq]
  obtain ⟨e00, e01, e10, e11, e20, e21, e30, e31, e40, e41, e50, e51⟩ := idx1 t
  have hN : t.val < 50 := Nat.lt_of_lt_of_eq t.isLt N_1
  funext y
  obtain ⟨r, q, rfl⟩ : ∃ (r : Fin 1000) (q : Fin 512), y = ix2 r q := ⟨y 0, y 1, eq_ix2 y⟩
  have hR : t.val * 1000 + r.val < 50000 := by have := r.isLt; omega
  have hemb : ((cfg1.win 5).blk t).view.emb (ix2 r q) = ix2 (⟨t.val * 1000 + r.val, hR⟩ : Fin 50000) q := by
    funext a; apply Fin.ext
    match a with
    | ⟨0, _⟩ => show win1_5.index t (0 : Fin 2) * 1000 + 1 * r.val = t.val * 1000 + r.val; rw [e50]; omega
    | ⟨1, _⟩ => show win1_5.index t (1 : Fin 2) * 512 + 1 * q.val = q.val; rw [e51]; omega
  have hwl : (iblk1 V c 2 t : S512x512.Idx → EReal) = (V c main_v53 : S512x512.Idx → EReal) := by
    funext j
    show (V c main_v53 : S512x512.Idx → EReal) (((cfg1.win 2).blk t).view.emb j) = (V c main_v53 : S512x512.Idx → EReal) j
    refine congrArg _ (funext fun a => Fin.ext ?_)
    match a with
    | ⟨0, _⟩ => show win1_2.index t (0 : Fin 2) * 512 + 1 * (j 0).val = (j 0).val; rw [e20]; omega
    | ⟨1, _⟩ => show win1_2.index t (1 : Fin 2) * 512 + 1 * (j 1).val = (j 1).val; rw [e21]; omega
  have hwr : (iblk1 V c 3 t : S512x512.Idx → EReal) = (V c main_v55 : S512x512.Idx → EReal) := by
    funext j
    show (V c main_v55 : S512x512.Idx → EReal) (((cfg1.win 3).blk t).view.emb j) = (V c main_v55 : S512x512.Idx → EReal) j
    refine congrArg _ (funext fun a => Fin.ext ?_)
    match a with
    | ⟨0, _⟩ => show win1_3.index t (0 : Fin 2) * 512 + 1 * (j 0).val = (j 0).val; rw [e30]; omega
    | ⟨1, _⟩ => show win1_3.index t (1 : Fin 2) * 512 + 1 * (j 1).val = (j 1).val; rw [e31]; omega
  have hb : (iblk1 V c 4 t : S1x512.Idx → EReal) = (V c main_v58 : S1x512.Idx → EReal) := by
    funext j
    show (V c main_v58 : S1x512.Idx → EReal) (((cfg1.win 4).blk t).view.emb j) = (V c main_v58 : S1x512.Idx → EReal) j
    refine congrArg _ (funext fun a => Fin.ext ?_)
    match a with
    | ⟨0, _⟩ => show win1_4.index t (0 : Fin 2) * 1 + 1 * (j 0).val = (j 0).val; rw [e40]; omega
    | ⟨1, _⟩ => show win1_4.index t (1 : Fin 2) * 512 + 1 * (j 1).val = (j 1).val; rw [e41]; omega
  have ha : ∀ k : Fin 512, (iblk1 V c 0 t : S1000x512.Idx → EReal) (ix2 r k)
      = (V c main_v51 : S50000x512.Idx → EReal) (ix2 (⟨t.val * 1000 + r.val, hR⟩ : Fin 50000) k) := fun k => by
    show (V c main_v51 : S50000x512.Idx → EReal) (((cfg1.win 0).blk t).view.emb (ix2 r k)) = _
    refine congrArg _ (funext fun a => Fin.ext ?_)
    match a with
    | ⟨0, _⟩ => show win1_0.index t (0 : Fin 2) * 1000 + 1 * r.val = t.val * 1000 + r.val; rw [e00]; omega
    | ⟨1, _⟩ => show win1_0.index t (1 : Fin 2) * 512 + 1 * k.val = k.val; rw [e01]; omega
  have hzz : ∀ k : Fin 512, (iblk1 V c 1 t : S1000x512.Idx → EReal) (ix2 r k)
      = (V c main_v36 : S50000x512.Idx → EReal) (ix2 (⟨t.val * 1000 + r.val, hR⟩ : Fin 50000) k) := fun k => by
    show (V c main_v36 : S50000x512.Idx → EReal) (((cfg1.win 1).blk t).view.emb (ix2 r k)) = _
    refine congrArg _ (funext fun a => Fin.ext ?_)
    match a with
    | ⟨0, _⟩ => show win1_1.index t (0 : Fin 2) * 1000 + 1 * r.val = t.val * 1000 + r.val; rw [e10]; omega
    | ⟨1, _⟩ => show win1_1.index t (1 : Fin 2) * 512 + 1 * k.val = k.val; rw [e11]; omega
  show layer (iblk1 V c 2 t : S512x512.Idx → EReal) (iblk1 V c 3 t : S512x512.Idx → EReal) (fun j => (iblk1 V c 4 t : S1x512.Idx → EReal) (ix2 (0 : Fin 1) j))
      (iblk1 V c 0 t : S1000x512.Idx → EReal) (iblk1 V c 1 t : S1000x512.Idx → EReal) (ix2 r q)
    = G1 V c (((cfg1.win 5).blk t).view.emb (ix2 r q))
  rw [hemb, hwl, hwr, hb]
  exact layer_rows _ _ _ _ _ _ _ r ⟨t.val * 1000 + r.val, hR⟩ q ha hzz

/-- Every index of the output array lies in the block of the point its row falls in. -/
theorem cover1 (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  have ht : (i 0).val / 1000 < cfg1.N := by rw [show cfg1.N = 50 from N_1]; omega
  obtain ⟨e00, e01, e10, e11, e20, e21, e30, e31, e40, e41, e50, e51⟩ := idx1 ⟨(i 0).val / 1000, ht⟩
  refine ⟨⟨(i 0).val / 1000, ht⟩, flush1_5 _, ?_⟩
  show i ∈ ((View.whole main_v59).slice (win1_5.rect ⟨(i 0).val / 1000, ht⟩)).set
  rw [View.set_slice_whole, Rect.mem_set_unit]
  intro a
  match a with
  | ⟨0, _⟩ =>
    show win1_5.index ⟨(i 0).val / 1000, ht⟩ (0 : Fin 2) * 1000 ≤ (i 0).val ∧ (i 0).val < win1_5.index ⟨(i 0).val / 1000, ht⟩ (0 : Fin 2) * 1000 + 1000
    rw [e50]; show (i 0).val / 1000 * 1000 ≤ (i 0).val ∧ (i 0).val < (i 0).val / 1000 * 1000 + 1000; omega
  | ⟨1, _⟩ =>
    show win1_5.index ⟨(i 0).val / 1000, ht⟩ (1 : Fin 2) * 512 ≤ (i 1).val ∧ (i 1).val < win1_5.index ⟨(i 0).val / 1000, ht⟩ (1 : Fin 2) * 512 + 512
    rw [e51]; omega

/-- Launch 1's output array after the run is the layer of the arrays the launch finds. -/
theorem final1 (c : Dev nD) : (dat1 (F := Ideal) V c).arrAt 5 cfg1.N = G1 V c :=
  (dat1 (F := Ideal) V c).arrAt_eq_of_cover 5 (G1 V c) (fun t _ => flushed1 V c t) (cover1)

end Cert.KernelIdeal.Blocks1

end
-- ==== Proof.Blocks2.lean ====
/-
  Launch 2 of the layer kernel, read as a value: for any buffer contents V at the launch's entry, its output array
  after all fifty write-backs is the layer of the five arrays the launch reads.  Point t of the grid loads rows
  1000·t … 1000·t + 999 of the aggregated and of the node features and the whole weights and bias, and writes back the
  same rows of the output; a row of the layer depends on that row of the two operands only, and the fifty row blocks
  cover the array.
-/
import proofs.«138807_j57509612093516_1_alg».proof.Proof.Gen.KernelIdeal.Frame
import proofs.«138807_j57509612093516_1_alg».proof.Proof.Payload
import Idealize.ShloMosaic.Lib.Pipeline.Value

set_option maxRecDepth 16384

noncomputable section

namespace Cert.KernelIdeal.Blocks2

open Cert.KernelIdeal Cert.KernelIdeal.Gen Cert.KernelIdeal.Payload
open Idealize.ShloMosaic Idealize.ShloMosaic.TcCoe Idealize.SL.Sem
open Idealize.ShloMosaic.ValueIdx Cert.Sage Cert.LibMatmul
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 2 -/

/-- The printed index maps of launch 2, decided over its 50 grid points: the two row-blocked operands and the
    output sit at block row t, the weights and the bias at their one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What launch 2's output array ends holding: the layer of the arrays the launch finds. -/
abbrev G2 (c : Dev nD) : S50000x512.Idx → EReal :=
  layer (V c main_v76 : S512x512.Idx → EReal) (V c main_v78 : S512x512.Idx → EReal) (fun j => (V c main_v81 : S1x512.Idx → EReal) (ix2 (0 : Fin 1) j))
    (V c main_v74 : S50000x512.Idx → EReal) (V c main_v59 : S50000x512.Idx → EReal)

/-- What point t writes back is block t of that array: rows 1000·t … 1000·t + 999 of the layer, which read the same
    rows of the two row-blocked operands and the whole weights and bias. -/
theorem flushed2 (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero hz]
  simp only [View.ld_unit_zero (S := S1000x512) hz, View.ld_unit_zero (S := S512x512) hz, View.ld_unit_zero (S := S1x512) hz]
  rw [pay2_eq]
  obtain ⟨e00, e01, e10, e11, e20, e21, e30, e31, e40, e41, e50, e51⟩ := idx2 t
  have hN : t.val < 50 := Nat.lt_of_lt_of_eq t.isLt N_2
  funext y
  obtain ⟨r, q, rfl⟩ : ∃ (r : Fin 1000) (q : Fin 512), y = ix2 r q := ⟨y 0, y 1, eq_ix2 y⟩
  have hR : t.val * 1000 + r.val < 50000 := by have := r.isLt; omega
  have hemb : ((cfg2.win 5).blk t).view.emb (ix2 r q) = ix2 (⟨t.val * 1000 + r.val, hR⟩ : Fin 50000) q := by
    funext a; apply Fin.ext
    match a with
    | ⟨0, _⟩ => show win2_5.index t (0 : Fin 2) * 1000 + 1 * r.val = t.val * 1000 + r.val; rw [e50]; omega
    | ⟨1, _⟩ => show win2_5.index t (1 : Fin 2) * 512 + 1 * q.val = q.val; rw [e51]; omega
  have hwl : (iblk2 V c 2 t : S512x512.Idx → EReal) = (V c main_v76 : S512x512.Idx → EReal) := by
    funext j
    show (V c main_v76 : S512x512.Idx → EReal) (((cfg2.win 2).blk t).view.emb j) = (V c main_v76 : S512x512.Idx → EReal) j
    refine congrArg _ (funext fun a => Fin.ext ?_)
    match a with
    | ⟨0, _⟩ => show win2_2.index t (0 : Fin 2) * 512 + 1 * (j 0).val = (j 0).val; rw [e20]; omega
    | ⟨1, _⟩ => show win2_2.index t (1 : Fin 2) * 512 + 1 * (j 1).val = (j 1).val; rw [e21]; omega
  have hwr : (iblk2 V c 3 t : S512x512.Idx → EReal) = (V c main_v78 : S512x512.Idx → EReal) := by
    funext j
    show (V c main_v78 : S512x512.Idx → EReal) (((cfg2.win 3).blk t).view.emb j) = (V c main_v78 : S512x512.Idx → EReal) j
    refine congrArg _ (funext fun a => Fin.ext ?_)
    match a with
    | ⟨0, _⟩ => show win2_3.index t (0 : Fin 2) * 512 + 1 * (j 0).val = (j 0).val; rw [e30]; omega
    | ⟨1, _⟩ => show win2_3.index t (1 : Fin 2) * 512 + 1 * (j 1).val = (j 1).val; rw [e31]; omega
  have hb : (iblk2 V c 4 t : S1x512.Idx → EReal) = (V c main_v81 : S1x512.Idx → EReal) := by
    funext j
    show (V c main_v81 : S1x512.Idx → EReal) (((cfg2.win 4).blk t).view.emb j) = (V c main_v81 : S1x512.Idx → EReal) j
    refine congrArg _ (funext fun a => Fin.ext ?_)
    match a with
    | ⟨0, _⟩ => show win2_4.index t (0 : Fin 2) * 1 + 1 * (j 0).val = (j 0).val; rw [e40]; omega
    | ⟨1, _⟩ => show win2_4.index t (1 : Fin 2) * 512 + 1 * (j 1).val = (j 1).val; rw [e41]; omega
  have ha : ∀ k : Fin 512, (iblk2 V c 0 t : S1000x512.Idx → EReal) (ix2 r k)
      = (V c main_v74 : S50000x512.Idx → EReal) (ix2 (⟨t.val * 1000 + r.val, hR⟩ : Fin 50000) k) := fun k => by
    show (V c main_v74 : S50000x512.Idx → EReal) (((cfg2.win 0).blk t).view.emb (ix2 r k)) = _
    refine congrArg _ (funext fun a => Fin.ext ?_)
    match a with
    | ⟨0, _⟩ => show win2_0.index t (0 : Fin 2) * 1000 + 1 * r.val = t.val * 1000 + r.val; rw [e00]; omega
    | ⟨1, _⟩ => show win2_0.index t (1 : Fin 2) * 512 + 1 * k.val = k.val; rw [e01]; omega
  have hzz : ∀ k : Fin 512, (iblk2 V c 1 t : S1000x512.Idx → EReal) (ix2 r k)
      = (V c main_v59 : S50000x512.Idx → EReal) (ix2 (⟨t.val * 1000 + r.val, hR⟩ : Fin 50000) k) := fun k => by
    show (V c main_v59 : S50000x512.Idx → EReal) (((cfg2.win 1).blk t).view.emb (ix2 r k)) = _
    refine congrArg _ (funext fun a => Fin.ext ?_)
    match a with
    | ⟨0, _⟩ => show win2_1.index t (0 : Fin 2) * 1000 + 1 * r.val = t.val * 1000 + r.val; rw [e10]; omega
    | ⟨1, _⟩ => show win2_1.index t (1 : Fin 2) * 512 + 1 * k.val = k.val; rw [e11]; omega
  show layer (iblk2 V c 2 t : S512x512.Idx → EReal) (iblk2 V c 3 t : S512x512.Idx → EReal) (fun j => (iblk2 V c 4 t : S1x512.Idx → EReal) (ix2 (0 : Fin 1) j))
      (iblk2 V c 0 t : S1000x512.Idx → EReal) (iblk2 V c 1 t : S1000x512.Idx → EReal) (ix2 r q)
    = G2 V c (((cfg2.win 5).blk t).view.emb (ix2 r q))
  rw [hemb, hwl, hwr, hb]
  exact layer_rows _ _ _ _ _ _ _ r ⟨t.val * 1000 + r.val, hR⟩ q ha hzz

/-- Every index of the output array lies in the block of the point its row falls in. -/
theorem cover2 (i : S50000x512.Idx) : ∃ t : Fin cfg2.N, (cfg2.win 5).flush t = true ∧ i ∈ ((cfg2.win 5).blk t).view.set := by
  have hi0 : (i 0).val < 50000 := (i 0).isLt
  have hi1 : (i 1).val < 512 := (i 1).isLt
  have ht : (i 0).val / 1000 < cfg2.N := by rw [show cfg2.N = 50 from N_2]; omega
  obtain ⟨e00, e01, e10, e11, e20, e21, e30, e31, e40, e41, e50, e51⟩ := idx2 ⟨(i 0).val / 1000, ht⟩
  refine ⟨⟨(i 0).val / 1000, ht⟩, flush2_5 _, ?_⟩
  show i ∈ ((View.whole main_v82).slice (win2_5.rect ⟨(i 0).val / 1000, ht⟩)).set
  rw [View.set_slice_whole, Rect.mem_set_unit]
  intro a
  match a with
  | ⟨0, _⟩ =>
    show win2_5.index ⟨(i 0).val / 1000, ht⟩ (0 : Fin 2) * 1000 ≤ (i 0).val ∧ (i 0).val < win2_5.index ⟨(i 0).val / 1000, ht⟩ (0 : Fin 2) * 1000 + 1000
    rw [e50]; show (i 0).val / 1000 * 1000 ≤ (i 0).val ∧ (i 0).val < (i 0).val / 1000 * 1000 + 1000; omega
  | ⟨1, _⟩ =>
    show win2_5.index ⟨(i 0).val / 1000, ht⟩ (1 : Fin 2) * 512 ≤ (i 1).val ∧ (i 1).val < win2_5.index ⟨(i 0).val / 1000, ht⟩ (1 : Fin 2) * 512 + 512
    rw [e51]; omega

/-- Launch 2's output array after the run is the layer of the arrays the launch finds. -/
theorem final2 (c : Dev nD) : (dat2 (F := Ideal) V c).arrAt 5 cfg2.N = G2 V c :=
  (dat2 (F := Ideal) V c).arrAt_eq_of_cover 5 (G2 V c) (fun t _ => flushed2 V c t) (cover2)

end Cert.KernelIdeal.Blocks2

end
-- ==== Proof.KernelValue.lean ====
/-
  The kernel program's result as the three layers composed.  Each launch's output array is the layer of the arrays
  the launch finds; those are what the stretch of host operations before the launch computes — the layer's weight
  matrices and bias row sliced out of the stacked arguments, and the neighbour aggregation of the previous launch's
  output (of the node-feature argument, for the first) — from buffers no launch has written since the program's
  first stretch.
-/
import proofs.«138807_j57509612093516_1_alg».proof.Proof.KernelLeaves
import proofs.«138807_j57509612093516_1_alg».proof.Proof.Blocks0
import proofs.«138807_j57509612093516_1_alg».proof.Proof.Blocks1
import proofs.«138807_j57509612093516_1_alg».proof.Proof.Blocks2
import Idealize.ShloMosaic.Lib.ValueLayout

set_option maxRecDepth 16384

noncomputable section

namespace Cert.KernelIdeal.NetValue

open Cert.KernelIdeal Cert.KernelIdeal.Gen Cert.KernelIdeal.Net Cert.KernelIdeal.Leaves
open Idealize.ShloMosaic Idealize.ShloMosaic.TcCoe Idealize.SL.Sem Idealize.ShloMosaic.StableHlo
open Idealize.ShloMosaic.ValueIdx Cert.Sage Cert.LibMatmul

/-- A [1, 512] row reshaped to [512] and back reads, at its one row, what it held. -/
theorem two_casts (s : (⟨2, ![1, 512]⟩ : Shape).Idx → EReal) (h1 : (⟨2, ![1, 512]⟩ : Shape).ShapeCasts ⟨1, ![512]⟩)
    (h2 : (⟨1, ![512]⟩ : Shape).ShapeCasts ⟨2, ![1, 512]⟩) (j : Fin 512) :
    shapeCast ⟨2, ![1, 512]⟩ (shapeCast ⟨1, ![512]⟩ s h1) h2 (ix2 (0 : Fin 1) j) = s (ix2 (0 : Fin 1) j) :=
  (shapeCast_a_1a_apply _ h2 (0 : Fin 1) j).trans (shapeCast_1a_a_apply s h1 j)

/-- Layers with equal operands are equal. -/
theorem layer_congr {A : Nat} {wl wl' wr wr' : (⟨2, ![512, 512]⟩ : Shape).Idx → EReal} {β β' : Fin 512 → EReal}
    {a a' z z' : (⟨2, ![A, 512]⟩ : Shape).Idx → EReal} (h1 : wl = wl') (h2 : wr = wr') (h3 : β = β') (h4 : a = a') (h5 : z = z') :
    layer wl wr β a z = layer wl' wr' β' a' z' := by
  subst h1 h2 h3 h4 h5; rfl

variable (m : (ℓ : Loc nD τ sig) → Buf (Elt Ideal) ℓ) (ρ : Dev nD → PrngReg) (c : Dev nD)

/-- The first layer's result, of the argument arrays. -/
def k1 : S50000x512.Idx → EReal :=
  layer (wslice0 (F := Ideal) (m ((c : Thread nD τ).loc main_arg3))) (wslice0 (F := Ideal) (m ((c : Thread nD τ).loc main_arg4))) (fun j => brow0 (F := Ideal) (m ((c : Thread nD τ).loc main_arg5)) (ix2 (0 : Fin 1) j))
    (agg (F := Ideal) (m ((c : Thread nD τ).loc main_arg0)) (m ((c : Thread nD τ).loc main_arg1)) (m ((c : Thread nD τ).loc main_arg2))) (m ((c : Thread nD τ).loc main_arg0))
/-- The second layer's result. -/
def k2 : S50000x512.Idx → EReal :=
  layer (wslice1 (F := Ideal) (m ((c : Thread nD τ).loc main_arg3))) (wslice1 (F := Ideal) (m ((c : Thread nD τ).loc main_arg4))) (fun j => brow1 (F := Ideal) (m ((c : Thread nD τ).loc main_arg5)) (ix2 (0 : Fin 1) j))
    (agg (F := Ideal) (k1 m c) (m ((c : Thread nD τ).loc main_arg1)) (m ((c : Thread nD τ).loc main_arg2))) (k1 m c)
/-- The third layer's result. -/
def k3 : S50000x512.Idx → EReal :=
  layer (wslice2 (F := Ideal) (m ((c : Thread nD τ).loc main_arg3))) (wslice2 (F := Ideal) (m ((c : Thread nD τ).loc main_arg4))) (fun j => brow2 (F := Ideal) (m ((c : Thread nD τ).loc main_arg5)) (ix2 (0 : Fin 1) j))
    (agg (F := Ideal) (k2 m c) (m ((c : Thread nD τ).loc main_arg1)) (m ((c : Thread nD τ).loc main_arg2))) (k2 m c)

/-- The three results are the composition `net` of the arguments. -/
theorem k3_eq : k3 m c = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

/-! ## The arrays launch 0 finds -/

theorem wl0 : (V3 m ρ c main_v30 : S512x512.Idx → EReal) = wslice0 (F := Ideal) (m ((c : Thread nD τ).loc main_arg3)) := by
  show StableHlo.after hostOps0_2 (StableHlo.after hostOps0_1 (StableHlo.after hostOps0 (W0 m ρ c))) (Proc.devRef .tc main_v30) = _
  after_results_simp <;> rfl
theorem wr0 : (V3 m ρ c main_v32 : S512x512.Idx → EReal) = wslice0 (F := Ideal) (m ((c : Thread nD τ).loc main_arg4)) := by
  show StableHlo.after hostOps0_2 (StableHlo.after hostOps0_1 (StableHlo.after hostOps0 (W0 m ρ c))) (Proc.devRef .tc main_v32) = _
  after_results_simp <;> rfl
theorem bias0 : (fun j : Fin 512 => (V3 m ρ c main_v35 : S1x512.Idx → EReal) (ix2 (0 : Fin 1) j))
    = fun j : Fin 512 => brow0 (F := Ideal) (m ((c : Thread nD τ).loc main_arg5)) (ix2 (0 : Fin 1) j) := by
  have e : (V3 m ρ c main_v35 : S1x512.Idx → EReal)
      = shapeCast S1x512 (shapeCast S512 (brow0 (F := Ideal) (m ((c : Thread nD τ).loc main_arg5))) shapeCasts_S1x512_S512) shapeCasts_S512_S1x512 := by
    show StableHlo.after hostOps0_2 (StableHlo.after hostOps0_1 (StableHlo.after hostOps0 (W0 m ρ c))) (Proc.devRef .tc main_v35) = _
    after_results_simp <;> rfl
  funext j
  rw [e]
  exact two_casts _ _ _ j
theorem agg0 : (V3 m ρ c main_v28 : S50000x512.Idx → EReal) = agg (F := Ideal) (m ((c : Thread nD τ).loc main_arg0)) (m ((c : Thread nD τ).loc main_arg1)) (m ((c : Thread nD τ).loc main_arg2)) := by
  have h12 := at2_v12 m ρ c
  have h1 := at2_v1 m ρ c
  have h3 := at2_v3 m ρ c
  have h0 := at2_arg0 m ρ c
  have h2 := at2_arg2 m ρ c
  show StableHlo.after hostOps0_2 (W2 m ρ c) (Proc.devRef .tc main_v28) = _
  generalize W2 m ρ c = U at h12 h1 h3 h0 h2 ⊢
  after_results_simp
  rw [h12, h1, h3, h0, h2]
  rfl
theorem z0 : (V3 m ρ c main_arg0 : S50000x512.Idx → EReal) = (m ((c : Thread nD τ).loc main_arg0)) := by
  show StableHlo.after hostOps0_2 (StableHlo.after hostOps0_1 (StableHlo.after hostOps0 (W0 m ρ c))) (Proc.devRef .tc main_arg0) = _
  after_results_simp <;> rfl

/-- The first launch's output array after the launch: the first layer's result. -/
theorem out0 : W4 m ρ c (Proc.devRef .tc main_v36) = k1 m c :=
  (W4_arr m ρ c 5).trans ((Cert.KernelIdeal.Blocks0.final0 (V3 m ρ) c).trans
    (layer_congr (wl0 m ρ c) (wr0 m ρ c) (bias0 m ρ c) (agg0 m ρ c) (z0 m ρ c)))

/-! ## The arrays launch 1 finds -/

theorem wl1 : (V5 m ρ c main_v53 : S512x512.Idx → EReal) = wslice1 (F := Ideal) (m ((c : Thread nD τ).loc main_arg3)) := by
  show StableHlo.after hostOps1 (W4 m ρ c) (Proc.devRef .tc main_v53) = _
  after_results_simp
  rw [at4_arg3 m ρ c]
  rfl
theorem wr1 : (V5 m ρ c main_v55 : S512x512.Idx → EReal) = wslice1 (F := Ideal) (m ((c : Thread nD τ).loc main_arg4)) := by
  show StableHlo.after hostOps1 (W4 m ρ c) (Proc.devRef .tc main_v55) = _
  after_results_simp
  rw [at4_arg4 m ρ c]
  rfl
theorem bias1 : (fun j : Fin 512 => (V5 m ρ c main_v58 : S1x512.Idx → EReal) (ix2 (0 : Fin 1) j))
    = fun j : Fin 512 => brow1 (F := Ideal) (m ((c : Thread nD τ).loc main_arg5)) (ix2 (0 : Fin 1) j) := by
  have e : (V5 m ρ c main_v58 : S1x512.Idx → EReal)
      = shapeCast S1x512 (shapeCast S512 (brow1 (F := Ideal) (m ((c : Thread nD τ).loc main_arg5))) shapeCasts_S1x512_S512) shapeCasts_S512_S1x512 := by
    show StableHlo.after hostOps1 (W4 m ρ c) (Proc.devRef .tc main_v58) = _
    after_results_simp
    rw [at4_arg5 m ρ c]
    rfl
  funext j
  rw [e]
  exact two_casts _ _ _ j
theorem agg1 : (V5 m ρ c main_v51 : S50000x512.Idx → EReal) = agg (F := Ideal) (k1 m c) (m ((c : Thread nD τ).loc main_arg1)) (m ((c : Thread nD τ).loc main_arg2)) := by
  show StableHlo.after hostOps1 (W4 m ρ c) (Proc.devRef .tc main_v51) = _
  after_results_simp
  rw [out0 m ρ c, at4_v1 m ρ c, at4_v3 m ρ c, at4_v13 m ρ c, at4_arg2 m ρ c]
  rfl
theorem z1 : (V5 m ρ c main_v36 : S50000x512.Idx → EReal) = k1 m c := by
  show StableHlo.after hostOps1 (W4 m ρ c) (Proc.devRef .tc main_v36) = _
  after_results_simp
  exact out0 m ρ c

/-- The second launch's output array after the launch: the second layer's result. -/
theorem out1 : W6 m ρ c (Proc.devRef .tc main_v59) = k2 m c :=
  (W6_arr m ρ c 5).trans ((Cert.KernelIdeal.Blocks1.final1 (V5 m ρ) c).trans
    (layer_congr (wl1 m ρ c) (wr1 m ρ c) (bias1 m ρ c) (agg1 m ρ c) (z1 m ρ c)))

/-! ## The arrays launch 2 finds -/

theorem wl2 : (V7 m ρ c main_v76 : S512x512.Idx → EReal) = wslice2 (F := Ideal) (m ((c : Thread nD τ).loc main_arg3)) := by
  show StableHlo.after hostOps2 (W6 m ρ c) (Proc.devRef .tc main_v76) = _
  after_results_simp
  rw [at6_arg3 m ρ c]
  rfl
theorem wr2 : (V7 m ρ c main_v78 : S512x512.Idx → EReal) = wslice2 (F := Ideal) (m ((c : Thread nD τ).loc main_arg4)) := by
  show StableHlo.after hostOps2 (W6 m ρ c) (Proc.devRef .tc main_v78) = _
  after_results_simp
  rw [at6_arg4 m ρ c]
  rfl
theorem bias2 : (fun j : Fin 512 => (V7 m ρ c main_v81 : S1x512.Idx → EReal) (ix2 (0 : Fin 1) j))
    = fun j : Fin 512 => brow2 (F := Ideal) (m ((c : Thread nD τ).loc main_arg5)) (ix2 (0 : Fin 1) j) := by
  have e : (V7 m ρ c main_v81 : S1x512.Idx → EReal)
      = shapeCast S1x512 (shapeCast S512 (brow2 (F := Ideal) (m ((c : Thread nD τ).loc main_arg5))) shapeCasts_S1x512_S512) shapeCasts_S512_S1x512 := by
    show StableHlo.after hostOps2 (W6 m ρ c) (Proc.devRef .tc main_v81) = _
    after_results_simp
    rw [at6_arg5 m ρ c]
    rfl
  funext j
  rw [e]
  exact two_casts _ _ _ j
theorem agg2 : (V7 m ρ c main_v74 : S50000x512.Idx → EReal) = agg (F := Ideal) (k2 m c) (m ((c : Thread nD τ).loc main_arg1)) (m ((c : Thread nD τ).loc main_arg2)) := by
  show StableHlo.after hostOps2 (W6 m ρ c) (Proc.devRef .tc main_v74) = _
  after_results_simp
  rw [out1 m ρ c, at6_v1 m ρ c, at6_v3 m ρ c, at6_v13 m ρ c, at6_arg2 m ρ c]
  rfl
theorem z2 : (V7 m ρ c main_v59 : S50000x512.Idx → EReal) = k2 m c := by
  show StableHlo.after hostOps2 (W6 m ρ c) (Proc.devRef .tc main_v59) = _
  after_results_simp
  exact out1 m ρ c

/-- The result array at the program's end: the third layer's result. -/
theorem out2 : W8 m ρ c (Proc.devRef .tc main_v82) = k3 m c :=
  (W8_arr m ρ c 5).trans ((Cert.KernelIdeal.Blocks2.final2 (V7 m ρ) c).trans
    (layer_congr (wl2 m ρ c) (wr2 m ρ c) (bias2 m ρ c) (agg2 m ρ c) (z2 m ρ c)))

/-- The result array at the program's end is the three layers composed, of the argument arrays. -/
theorem result_eq : W8 m ρ c (Proc.devRef .tc main_v82) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (out2 m ρ c).trans (k3_eq m c)

end Cert.KernelIdeal.NetValue

end
-- ==== Proof.Bridge.lean ====
/-
  The two programs' compositions are one function.  The kernel program's host operations and the reference's are
  the same operations on the same shapes (the gather and the two scatter-adds with the same dimension numbers, the
  same slices, casts and broadcasts), so the neighbour aggregation, the weight matrices and the bias rows are the same
  terms, and with them the three layers composed.
-/
import proofs.«138807_j57509612093516_1_alg».proof.Proof.KernelNet
import proofs.«138807_j57509612093516_1_alg».proof.Proof.RefNet

set_option maxRecDepth 16384

noncomputable section

namespace Cert.Bridge

open Idealize.ShloMosaic

/-- The kernel side's composition of the three layers is the reference side's. -/
theorem net_eq (x0 : (⟨Cert.KernelIdeal.S50000x512, .f32⟩ : BufTy).Contents (Elt Ideal)) (x1 : (⟨Cert.KernelIdeal.S2x400000, .i32⟩ : BufTy).Contents (Elt Ideal))
    (x2 : (⟨Cert.KernelIdeal.S400000, .f32⟩ : BufTy).Contents (Elt Ideal)) (x3 x4 : (⟨Cert.KernelIdeal.S3x512x512, .f32⟩ : BufTy).Contents (Elt Ideal))
    (x5 : (⟨Cert.KernelIdeal.S3x512, .f32⟩ : BufTy).Contents (Elt Ideal)) :
    Cert.KernelIdeal.Net.net x0 x1 x2 x3 x4 x5 = Cert.ReferenceIdeal.Net.net x0 x1 x2 x3 x4 x5 := rfl

end Cert.Bridge

end
-- ==== Proof.lean ====
/-
  A three-layer graph network, each layer
      z ← relu( mean-aggregate(z)·Wl + b + z·Wr ),
  where the aggregation gathers the source rows of z along the edge list, scales them by the edge weights, sums them
  into their destination rows and divides each row by its node's in-degree.  The kernel program computes the gather,
  the scatter-add and the scaling on the host, exactly as the reference does, and the dense part of each layer —
  two [rows, 512] × [512, 512] products, the bias and the relu — in a kernel launched over fifty blocks of a thousand
  rows; the reference computes the dense part with two host products.

  At the ideal values the two are the same extended reals, index by index: a change of float format is the identity,
  a product into a zero accumulator and the host's product are both the sum over the contracted axis, a row block of
  the layer reads the same row block of its operands, and the kernel's (a·Wl + z·Wr) + b is the reference's
  (a·Wl + b) + z·Wr because addition of extended reals is commutative and associative.  No finiteness is used: the
  precondition is never opened.

  The kernel's run is read off its three launches (each output array is the layer of the arrays the launch finds,
  those are the host stretch's terms of the previous output and of the arguments), the reference's off its host
  operations' composed term; both are the three layers composed, of the argument arrays.
-/
import proofs.«138807_j57509612093516_1_alg».proof.Defs
import proofs.«138807_j57509612093516_1_alg».proof.Proof.Gen.Kernel
import proofs.«138807_j57509612093516_1_alg».proof.Proof.Gen.Kernel.Skeleton
import proofs.«138807_j57509612093516_1_alg».proof.Proof.Gen.Kernel.Launch
import proofs.«138807_j57509612093516_1_alg».proof.Proof.Gen.Kernel.Points
import proofs.«138807_j57509612093516_1_alg».proof.Proof.Gen.Kernel.Frame
import proofs.«138807_j57509612093516_1_alg».proof.Proof.Gen.KernelIdeal
import proofs.«138807_j57509612093516_1_alg».proof.Proof.Gen.KernelIdeal.Skeleton
import proofs.«138807_j57509612093516_1_alg».proof.Proof.Gen.KernelIdeal.Launch
import proofs.«138807_j57509612093516_1_alg».proof.Proof.Gen.KernelIdeal.Points
import proofs.«138807_j57509612093516_1_alg».proof.Proof.Gen.KernelIdeal.Frame
import proofs.«138807_j57509612093516_1_alg».proof.Proof.Gen.ReferenceIdeal
import proofs.«138807_j57509612093516_1_alg».proof.Proof.Gen.Pre_finite_inputs
import proofs.«138807_j57509612093516_1_alg».proof.Proof.RefRun
import proofs.«138807_j57509612093516_1_alg».proof.Proof.RefNet
import proofs.«138807_j57509612093516_1_alg».proof.Proof.KernelRun
import proofs.«138807_j57509612093516_1_alg».proof.Proof.KernelValue
import proofs.«138807_j57509612093516_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the three layers composed, of arguments that agree. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.NetValue.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := hagree c
    rw [Cert.ReferenceIdeal.Net.res_eq, Cert.ReferenceIdeal.Net.hostnet_eq, h0, h1, h2, h3, h4, h5]
    exact (Cert.Bridge.net_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
